-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S640000x64 : Shape := ⟨2, ![640000, 64]⟩
abbrev S128x128 : Shape := ⟨2, ![128, 128]⟩
abbrev S128 : Shape := ⟨1, ![128]⟩
abbrev S64x128 : Shape := ⟨2, ![64, 128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000x64 : S_.BroadcastsInDim S640000x64 (![] : Fin 0 → Fin S640000x64.rank)
  reducesTo_S640000x64_S_d0_1 : S640000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg8 : FVec F S128 .f32) (main_arg9 : FVec F S64x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S64x128 .f32) (main_arg6 : FVec F S128 .f32) (main_arg7 : FVec F S128x128 .f32) (main_arg8 : FVec F S128 .f32) (main_arg9 : FVec F S64x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S40000x128 .f32) (main_arg1 : IVec S2x640000 32) (main_arg2 : FVec F S640000x64 .f32) (main_arg3 : FVec F S128x128 .f32) (main_arg4 : FVec F S128 .f32) (main_arg5 : FVec F S64x128 .f32) (main_arg6 : FVec F S128 .f32) (main_arg7 : FVec F S128x128 .f32) (main_arg8 : FVec F S128 .f32) (main_arg9 : FVec F S64x128 .f32) (main_arg10 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000x64 .f32 := Host.absf main_arg2
  let main_cst_0 : FVec F S_ .f32 := constant S_ .f32 0x7F800000#32
  let main_v5 : FVec F S640000x64 .f32 := broadcastInDim S640000x64 ![] bcast_S_S640000x64 main_cst_0
  let main_v6 : IVec S640000x64 1 := cmpf .olt main_v4 main_v5
  let main_c_1 : IVec S_ 1 := constantI S_ 1 1#1
  let main_v7 : IVec S_ 1 := (fun x v => Host.reduce IntOp.andi x v reducesTo_S640000x64_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S40000x128 : Shape := ⟨2, ![40000, 128]⟩
abbrev S2x640000 : Shape := ⟨2, ![2, 640000]⟩
abbrev S640000x64 : Shape := ⟨2, ![640000, 64]⟩
abbrev S128x128 : Shape := ⟨2, ![128, 128]⟩
abbrev S128 : Shape := ⟨1, ![128]⟩
abbrev S64x128 : Shape := ⟨2, ![64, 128]⟩
abbrev S1x640000 : Shape := ⟨2, ![1, 640000]⟩
abbrev S640000 : Shape := ⟨1, ![640000]⟩
abbrev S1x128 : Shape := ⟨2, ![1, 128]⟩
abbrev S640000x128 : Shape := ⟨2, ![640000, 128]⟩
abbrev S8000x64 : Shape := ⟨2, ![8000, 64]⟩
abbrev S8000x128 : Shape := ⟨2, ![8000, 128]⟩
abbrev S_ : Shape := ⟨0, ![]⟩
abbrev S640000x1 : Shape := ⟨2, ![640000, 1]⟩
abbrev S40000 : Shape := ⟨1, ![40000]⟩
abbrev S40000x1 : Shape := ⟨2, ![40000, 1]⟩

abbrev nBuf : Space → Nat
  | .hbm => 68
  | .vmem => 22
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000x64, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S64x128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S1x128, .f32⟩
  | .hbm, ⟨16, _⟩ => ⟨S1x128, .f32⟩
  | .hbm, ⟨17, _⟩ => ⟨S640000x128, .bf16⟩
  | .hbm, ⟨18, _⟩ => ⟨S640000x128, .bf16⟩
  | .hbm, ⟨19, _⟩ => ⟨S1x128, .f32⟩
  | .hbm, ⟨20, _⟩ => ⟨S40000x128, .bf16⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .bf16⟩
  | .hbm, ⟨30, _⟩ => ⟨S640000x128, .f32⟩
  | .hbm, ⟨31, _⟩ => ⟨S640000x128, .f32⟩
  | .hbm, ⟨32, _⟩ => ⟨S640000x128, .f32⟩
  | .hbm, ⟨33, _⟩ => ⟨S_, .f32⟩
  | .hbm, ⟨34, _⟩ => ⟨S40000x128, .f32⟩
  | .hbm, ⟨35, _⟩ => ⟨S640000x1, .i32⟩
  | .hbm, ⟨36, _⟩ => ⟨S40000x128, .f32⟩
  | .hbm, ⟨37, _⟩ => ⟨S1x128, .f32⟩
  | .hbm, ⟨38, _⟩ => ⟨S40000x128, .bf16⟩
  | .hbm, ⟨39, _⟩ => ⟨S_, .i32⟩
  | .hbm, ⟨40, _⟩ => ⟨S640000, .i32⟩
  | .hbm, ⟨41, _⟩ => ⟨S640000, .i1⟩
  | .hbm, ⟨42, _⟩ => ⟨S_, .i32⟩
  | .hbm, ⟨43, _⟩ => ⟨S640000, .i32⟩
  | .hbm, ⟨44, _⟩ => ⟨S640000, .i32⟩
  | .hbm, ⟨45, _⟩ => ⟨S640000, .i32⟩
  | .hbm, ⟨46, _⟩ => ⟨S640000x1, .i32⟩
  | .hbm, ⟨47, _⟩ => ⟨S640000x128, .bf16⟩
  | .hbm, ⟨48, _⟩ => ⟨S640000x128, .f32⟩
  | .hbm, ⟨49, _⟩ => ⟨S640000x128, .f32⟩
  | .hbm, ⟨50, _⟩ => ⟨S640000x128, .f32⟩
  | .hbm, ⟨51, _⟩ => ⟨S_, .f32⟩
  | .hbm, ⟨52, _⟩ => ⟨S40000x128, .f32⟩
  | .hbm, ⟨53, _⟩ => ⟨S640000x1, .i32⟩
  | .hbm, ⟨54, _⟩ => ⟨S40000x128, .f32⟩
  | .hbm, ⟨55, _⟩ => ⟨S_, .f32⟩
  | .hbm, ⟨56, _⟩ => ⟨S40000, .f32⟩
  | .hbm, ⟨57, _⟩ => ⟨S_, .f32⟩
  | .hbm, ⟨58, _⟩ => ⟨S40000, .f32⟩
  | .hbm, ⟨59, _⟩ => ⟨S40000, .i1⟩
  | .hbm, ⟨60, _⟩ => ⟨S40000x1, .i1⟩
  | .hbm, ⟨61, _⟩ => ⟨S_, .f32⟩
  | .hbm, ⟨62, _⟩ => ⟨S_, .f32⟩
  | .hbm, ⟨63, _⟩ => ⟨S40000x128, .i1⟩
  | .hbm, ⟨64, _⟩ => ⟨S40000x128, .f32⟩
  | .hbm, ⟨65, _⟩ => ⟨S40000x128, .f32⟩
  | .hbm, ⟨66, _⟩ => ⟨S_, .f32⟩
  | .hbm, ⟨67, _⟩ => ⟨S128, .f32⟩
  | .local _ .vmem, ⟨0, _⟩ => ⟨S8000x64, .f32⟩
  | .local _ .vmem, ⟨1, _⟩ => ⟨S8000x64, .f32⟩
  | .local _ .vmem, ⟨2, _⟩ => ⟨S64x128, .f32⟩
  | .local _ .vmem, ⟨3, _⟩ => ⟨S1x128, .f32⟩
  | .local _ .vmem, ⟨4, _⟩ => ⟨S64x128, .f32⟩
  | .local _ .vmem, ⟨5, _⟩ => ⟨S1x128, .f32⟩
  | .local _ .vmem, ⟨6, _⟩ => ⟨S8000x128, .bf16⟩
  | .local _ .vmem, ⟨7, _⟩ => ⟨S8000x128, .bf16⟩
  | .local _ .vmem, ⟨8, _⟩ => ⟨S8000x128, .bf16⟩
  | .local _ .vmem, ⟨9, _⟩ => ⟨S8000x128, .bf16⟩
  | .local _ .vmem, ⟨10, _⟩ => ⟨S8000x128, .f32⟩
  | .local _ .vmem, ⟨11, _⟩ => ⟨S8000x128, .f32⟩
  | .local _ .vmem, ⟨12, _⟩ => ⟨S128x128, .f32⟩
  | .local _ .vmem, ⟨13, _⟩ => ⟨S1x128, .f32⟩
  | .local _ .vmem, ⟨14, _⟩ => ⟨S8000x128, .bf16⟩
  | .local _ .vmem, ⟨15, _⟩ => ⟨S8000x128, .bf16⟩
  | .local _ .vmem, ⟨16, _⟩ => ⟨S8000x128, .f32⟩
  | .local _ .vmem, ⟨17, _⟩ => ⟨S8000x128, .f32⟩
  | .local _ .vmem, ⟨18, _⟩ => ⟨S128x128, .f32⟩
  | .local _ .vmem, ⟨19, _⟩ => ⟨S1x128, .f32⟩
  | .local _ .vmem, ⟨20, _⟩ => ⟨S8000x128, .bf16⟩
  | .local _ .vmem, ⟨21, _⟩ => ⟨S8000x128, .bf16⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_1 : Ref sig .tc := ⟨.hbm, 39, rfl⟩
abbrev main_v24 : Ref sig .tc := ⟨.hbm, 40, rfl⟩
abbrev main_v25 : Ref sig .tc := ⟨.hbm, 41, rfl⟩
abbrev main_c_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S128_S1x128 : S128.ShapeCasts S1x128
  inb_S8000x64_S8000x64_0_0 : ∀ a, (![0, 0] : Fin 2 → Nat) a + S8000x64.size a ≤ S8000x64.size a
  h_S8000x64 : 0 < S8000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  packedbf16_S8000x128_S8000x128_0_0 : (Rect.unit (s := S8000x128) ![0, 0] S8000x128.size inb_S8000x128_S8000x128_0_0).PackedRows (EltTy.packing .bf16)
  inb_S128x128_S128x128_0_0 : ∀ a, (![0, 0] : Fin 2 → Nat) a + S128x128.size a ≤ S128x128.size a
  h_S128x128 : 0 < S128x128.numel
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  shapeCasts_S8000x128_S8000x128 : S8000x128.ShapeCasts S8000x128
  reducesTo_S40000x128_S40000_d1 : S40000x128.ReducesTo [1] S40000
  h_S_ : 0 < S_.numel
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  reducesTo_S40000x128_S128_d0 : S40000x128.ReducesTo [0] S128
  dot_S8000x64_S64x128_S8000x128_1_0_0_1_n_n_wf : DotDims.WF S8000x64 S64x128 S8000x128 [1] [0] [0] [1] [] []
  dot_S8000x128_S128x128_S8000x128_1_0_0_1_n_n_wf : DotDims.WF S8000x128 S128x128 S8000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S640000x64.size a
  hwx0_0 : ∀ i : grid0.Coords, EltTy.bits .f32 = 32 ∨ (Rect.block (s := S640000x64) S8000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S640000x128.size a
  hwx0_5 : ∀ i : grid0.Coords, EltTy.bits .bf16 = 32 ∨ (Rect.block (s := S640000x128) S8000x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x128.size a ≤ S640000x128.size a
  hwx0_6 : ∀ i : grid0.Coords, EltTy.bits .bf16 = 32 ∨ (Rect.block (s := S640000x128) S8000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S40000x128.size a
  hwx1_0 : ∀ i : grid1.Coords, EltTy.bits .f32 = 32 ∨ (Rect.block (s := S40000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S40000x128.size a
  hwx1_3 : ∀ i : grid1.Coords, EltTy.bits .bf16 = 32 ∨ (Rect.block (s := S40000x128) S8000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S40000x128.size a
  hwx2_0 : ∀ i : grid2.Coords, EltTy.bits .f32 = 32 ∨ (Rect.block (s := S40000x128) S8000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x128.size a ≤ S40000x128.size a
  hwx2_3 : ∀ i : grid2.Coords, EltTy.bits .bf16 = 32 ∨ (Rect.block (s := S40000x128) S8000x128.size (cc2_transform_3 i) (hinb2_3 i)).WholeWords (EltTy.packing .bf16)

variable [Facts₀]

def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

abbrev win0_0 : Pipeline.Window sig grid0 :=
  Pipeline.Window.ofSpec (Memref.whole main_arg2) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S8000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S8000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v21) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S8000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S640000x64 : Shape := ⟨2, ![640000, 64]⟩
abbrev S128x128 : Shape := ⟨2, ![128, 128]⟩
abbrev S128 : Shape := ⟨1, ![128]⟩
abbrev S64x128 : Shape := ⟨2, ![64, 128]⟩
abbrev S1x128 : Shape := ⟨2, ![1, 128]⟩
abbrev S640000x128 : Shape := ⟨2, ![640000, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S40000 : Shape := ⟨1, ![40000]⟩
abbrev S40000x1 : Shape := ⟨2, ![40000, 1]⟩

abbrev nBuf : Space → Nat
  | .hbm => 79
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000x64, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S64x128, .f32⟩
  | .hbm, ⟨10, _⟩ => ⟨S128, .f32⟩
  | .hbm, ⟨11, _⟩ => ⟨S40000x128, .f32⟩
  | .hbm, ⟨12, _⟩ => ⟨S1x128, .f32⟩
  | .hbm, ⟨13, _⟩ => ⟨S40000x128, .f32⟩
  | .hbm, ⟨14, _⟩ => ⟨S40000x128, .f32⟩
  | .hbm, ⟨15, _⟩ => ⟨S640000x128, .f32⟩
  | .hbm, ⟨16, _⟩ => ⟨S1x128, .f32⟩
  | .hbm, ⟨17, _⟩ => ⟨S640000x128, .f32⟩
  | .hbm, ⟨18, _⟩ => ⟨S640000x128, .f32⟩
  | .hbm, ⟨19, _⟩ => ⟨S1x640000, .i32⟩
  | .hbm, ⟨20, _⟩ => ⟨S640000, .i32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .f32⟩
  | .hbm, ⟨30, _⟩ => ⟨S640000x128, .f32⟩
  | .hbm, ⟨31, _⟩ => ⟨S1x640000, .i32⟩
  | .hbm, ⟨32, _⟩ => ⟨S640000, .i32⟩
  | .hbm, ⟨33, _⟩ => ⟨S_, .f32⟩
  | .hbm, ⟨34, _⟩ => ⟨S40000x128, .f32⟩
  | .hbm, ⟨35, _⟩ => ⟨S640000x1, .i32⟩
  | .hbm, ⟨36, _⟩ => ⟨S40000x128, .f32⟩
  | .hbm, ⟨37, _⟩ => ⟨S_, .f32⟩
  | .hbm, ⟨38, _⟩ => ⟨S40000x128, .f32⟩
  | .hbm, ⟨39, _⟩ => ⟨S40000x128, .f32⟩
  | .hbm, ⟨40, _⟩ => ⟨S40000x128, .f32⟩
  | .hbm, ⟨41, _⟩ => ⟨S1x128, .f32⟩
  | .hbm, ⟨42, _⟩ => ⟨S40000x128, .f32⟩
  | .hbm, ⟨43, _⟩ => ⟨S40000x128, .f32⟩
  | .hbm, ⟨44, _⟩ => ⟨S640000x128, .f32⟩
  | .hbm, ⟨45, _⟩ => ⟨S1x128, .f32⟩
  | .hbm, ⟨46, _⟩ => ⟨S640000x128, .f32⟩
  | .hbm, ⟨47, _⟩ => ⟨S640000x128, .f32⟩
  | .hbm, ⟨48, _⟩ => ⟨S1x640000, .i32⟩
  | .hbm, ⟨49, _⟩ => ⟨S640000, .i32⟩
  | .hbm, ⟨50, _⟩ => ⟨S_, .i32⟩
  | .hbm, ⟨51, _⟩ => ⟨S640000, .i32⟩
  | .hbm, ⟨52, _⟩ => ⟨S640000, .i1⟩
  | .hbm, ⟨53, _⟩ => ⟨S_, .i32⟩
  | .hbm, ⟨54, _⟩ => ⟨S640000, .i32⟩
  | .hbm, ⟨55, _⟩ => ⟨S640000, .i32⟩
  | .hbm, ⟨56, _⟩ => ⟨S640000, .i32⟩
  | .hbm, ⟨57, _⟩ => ⟨S640000x1, .i32⟩
  | .hbm, ⟨58, _⟩ => ⟨S640000x128, .f32⟩
  | .hbm, ⟨59, _⟩ => ⟨S640000x128, .f32⟩
  | .hbm, ⟨60, _⟩ => ⟨S1x640000, .i32⟩
  | .hbm, ⟨61, _⟩ => ⟨S640000, .i32⟩
  | .hbm, ⟨62, _⟩ => ⟨S_, .f32⟩
  | .hbm, ⟨63, _⟩ => ⟨S40000x128, .f32⟩
  | .hbm, ⟨64, _⟩ => ⟨S640000x1, .i32⟩
  | .hbm, ⟨65, _⟩ => ⟨S40000x128, .f32⟩
  | .hbm, ⟨66, _⟩ => ⟨S_, .f32⟩
  | .hbm, ⟨67, _⟩ => ⟨S40000, .f32⟩
  | .hbm, ⟨68, _⟩ => ⟨S_, .f32⟩
  | .hbm, ⟨69, _⟩ => ⟨S40000, .f32⟩
  | .hbm, ⟨70, _⟩ => ⟨S40000, .i1⟩
  | .hbm, ⟨71, _⟩ => ⟨S40000x1, .i1⟩
  | .hbm, ⟨72, _⟩ => ⟨S_, .f32⟩
  | .hbm, ⟨73, _⟩ => ⟨S_, .f32⟩
  | .hbm, ⟨74, _⟩ => ⟨S40000x128, .i1⟩
  | .hbm, ⟨75, _⟩ => ⟨S40000x128, .f32⟩
  | .hbm, ⟨76, _⟩ => ⟨S40000x128, .f32⟩
  | .hbm, ⟨77, _⟩ => ⟨S_, .f32⟩
  | .hbm, ⟨78, _⟩ => ⟨S128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_1 : Ref sig .tc := ⟨.hbm, 50, rfl⟩
abbrev main_v34 : Ref sig .tc := ⟨.hbm, 51, rfl⟩
abbrev main_v35 : Ref sig .tc := ⟨.hbm, 52, rfl⟩
abbrev main_c_2 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_3 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_4 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_6 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v51 : Ref sig .tc := ⟨.hbm, 76, rfl⟩
abbrev main_cst_7 : Ref sig .tc := ⟨.hbm, 77, rfl⟩
abbrev main_v52 : Ref sig .tc := ⟨.hbm, 78, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S1x128_S640000x128_0_1 : S1x128.BroadcastsInDim S640000x128 (![0, 1] : Fin 2 → Fin S640000x128.rank)
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  bcast_S640000_S640000x1_0 : S640000.BroadcastsInDim S640000x1 (![0] : Fin 1 → Fin S640000x1.rank)
  slices_S2x640000_S1x640000_1_0 : S2x640000.Slices ![1, 0] S1x640000
  bcast_S_S40000x128 : S_.BroadcastsInDim S40000x128 (![] : Fin 0 → Fin S40000x128.rank)
  reducesTo_S40000x128_S40000_d1 : S40000x128.ReducesTo [1] S40000
  h_S_ : 0 < S_.numel
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  reducesTo_S40000x128_S128_d0 : S40000x128.ReducesTo [0] S128
  dot_S40000x128_S128x128_S40000x128_1_0_0_1_n_n_wf : DotDims.WF S40000x128 S128x128 S40000x128 [1] [0] [0] [1] [] []
  dot_S640000x64_S64x128_S640000x128_1_0_0_1_n_n_wf : DotDims.WF S640000x64 S64x128 S640000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1

variable [Facts₀]

def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def dot_S640000x64_S64x128_S640000x128_1_0_0_1_n_n : DotDims S640000x64 S64x128 S640000x128 where
  lhsContracting := [1]
  rhsContracting := [0]
  lhsNonContracting := [0]
  rhsNonContracting := [1]
  lhsBatch := []
  rhsBatch := []
  wf := dot_S640000x64_S64x128_S640000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

class Facts : Prop extends Facts₀ where

variable [Facts]
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibPlainDot.lean ====
/-
  A plain matrix product computed as a host dot_general, read at an entry, at the exact (extended-real) values.

  For an m×k matrix A and a k×n matrix B the product's (a, b) entry is the sum over the contracted coordinate c of
  A(a, c) · B(c, b), whatever the schedule key: the contraction's index set has one axis, of extent k, and is
  re-indexed by its one coordinate. The twin, for the host's product, of the same reading of a matmul into a zero
  accumulator.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the host's plain product of an m×k by a k×n matrix is `∑ c, A (a, c) * B (c, b)` on the
    extended reals. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

/-- The same for the schedule key of one device's data, as a host program applies it. -/
theorem hostDotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  dotGeneral_plain_apply prec .single A B a b

end Idealize.ShloMosaic.ValueIdx

end
-- ==== Proof.LibDenseLayer.lean ====
/-
  A dense layer, written two ways, on the extended reals.

  * `matmul_zero_eq_dotGeneral`: a plain m×k by k×n matrix product accumulated into the zero matrix is the host's
    plain product of the same matrices: both read, at (a, b), the sum over the contracted coordinate c of
    A(a, c) · B(c, b).
  * `biasRow_eq`: a length-b vector cast to a [1, b] row and repeated down a rows is the same [a, b] array as the
    host's two broadcasts (first to [1, b] along axis 1, then to [a, b]): both read, at (p, q), the vector at q.
  * `dense_apply`: the host's plain product plus the bias row, read at an entry.
  * `splat_eq`: a scalar repeated over a shape is the host's broadcast of the rank-zero constant of the same bits.
-/
import Idealize.ShloMosaic.PureOps.Ideal.Laws
import Idealize.ShloMosaic.Lib.ValueIdx
import Idealize.ShloMosaic.Lib.ValueLayout
import Idealize.ShloMosaic.Lib.Pipeline.Value
import proofs.«143581_j22153441313372_2_alg».proof.Proof.LibPlainMatmul
import proofs.«143581_j22153441313372_2_alg».proof.Proof.LibPlainDot

noncomputable section

namespace Cert.LibDenseLayer

open Idealize.ShloMosaic Idealize.ShloMosaic.ValueIdx

/-- Accumulated into zero, the plain product of an m×k by a k×n matrix is the host's plain product. -/
theorem matmul_zero_eq_dotGeneral {m k n : Nat} {φ₁ φ₂ : FTy} (prec : Option ContractPrecision)
    (A : FVec Ideal ⟨2, ![m, k]⟩ φ₁) (B : FVec Ideal ⟨2, ![k, n]⟩ φ₂) :
    matmul (DotDims.plain m k n) prec A B (constant ⟨2, ![m, n]⟩ .f32 0x00000000#32)
      = Host.dotGeneral (DotDims.plain m k n) prec A B := by
  funext i
  obtain ⟨a, b, rfl⟩ : ∃ (a : Fin m) (b : Fin n), i = ix2 a b := ⟨i 0, i 1, eq_ix2 i⟩
  rw [matmul_plain_zero_apply, hostDotGeneral_plain_apply]

/-- A dense layer at an entry: the host's plain product plus the bias row reads, at (a, b), the sum over the contracted
    coordinate c of A(a, c) · B(c, b), plus the bias at b. -/
theorem dense_apply {m k n : Nat} {φ : FTy} (prec : Option ContractPrecision)
    (A : FVec Ideal ⟨2, ![m, k]⟩ φ) (B : FVec Ideal ⟨2, ![k, n]⟩ φ) (v : FVec Ideal ⟨1, ![n]⟩ φ)
    (g1 : (⟨1, ![n]⟩ : Shape).BroadcastsInDim ⟨2, ![1, n]⟩ ![1])
    (g2 : (⟨2, ![1, n]⟩ : Shape).BroadcastsInDim ⟨2, ![m, n]⟩ ![0, 1]) (a : Fin m) (b : Fin n) :
    addf (Host.dotGeneral (DotDims.plain m k n) prec A B)
        (broadcastInDim ⟨2, ![m, n]⟩ ![0, 1] g2 (broadcastInDim ⟨2, ![1, n]⟩ ![1] g1 v)) (ix2 a b)
      = (∑ c : Fin k, A (ix2 a c) * B (ix2 c b)) + v (ix1 b) := by
  show Host.dotGeneral (DotDims.plain m k n) prec A B (ix2 a b)
      + broadcastInDim ⟨2, ![m, n]⟩ ![0, 1] g2 (broadcastInDim ⟨2, ![1, n]⟩ ![1] g1 v) (ix2 a b) = _
  rw [hostDotGeneral_plain_apply]
  have hb : b.val = if n = 1 then 0 else b.val := by
    split
    · have := b.isLt; omega
    · rfl
  have hk2 : ∀ ax : Fin 2, ((ix2 (0 : Fin 1) b : (⟨2, ![1, n]⟩ : Shape).Idx) ax).val
      = if (⟨2, ![1, n]⟩ : Shape).size ax = 1 then 0 else ((ix2 a b : (⟨2, ![m, n]⟩ : Shape).Idx) ((![0, 1] : Fin 2 → Fin 2) ax)).val := fun ax =>
    match ax with
    | ⟨0, _⟩ => rfl
    | ⟨1, _⟩ => hb
  have hk1 : ∀ ax : Fin 1, ((ix1 b : (⟨1, ![n]⟩ : Shape).Idx) ax).val
      = if (⟨1, ![n]⟩ : Shape).size ax = 1 then 0 else ((ix2 (0 : Fin 1) b : (⟨2, ![1, n]⟩ : Shape).Idx) ((![1] : Fin 1 → Fin 2) ax)).val := fun ax =>
    match ax with
    | ⟨0, _⟩ => hb
  rw [broadcastInDim_apply _ g2 _ (ix2 a b) (ix2 (0 : Fin 1) b) hk2, broadcastInDim_apply _ g1 v (ix2 (0 : Fin 1) b) (ix1 b) hk1]

variable {α : Type}

/-- A vector as a row repeated down the rows, the vector way and the host way. -/
theorem biasRow_eq {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (g1 : (⟨1, ![b]⟩ : Shape).BroadcastsInDim ⟨2, ![1, b]⟩ ![1])
    (g2 : (⟨2, ![1, b]⟩ : Shape).BroadcastsInDim ⟨2, ![a, b]⟩ ![0, 1]) :
    broadcastTo ⟨2, ![a, b]⟩ (shapeCast ⟨2, ![1, b]⟩ v h1) h2
      = broadcastInDim ⟨2, ![a, b]⟩ ![0, 1] g2 (broadcastInDim ⟨2, ![1, b]⟩ ![1] g1 v) := by
  funext i
  obtain ⟨p, q, rfl⟩ : ∃ (p : Fin a) (q : Fin b), i = ix2 p q := ⟨i 0, i 1, eq_ix2 i⟩
  rw [broadcastTo_1b_ab_apply, shapeCast_a_1a_apply]
  have hq : q.val = if b = 1 then 0 else q.val := by
    split
    · have := q.isLt; omega
    · rfl
  have hk2 : ∀ ax : Fin 2, ((ix2 (0 : Fin 1) q : (⟨2, ![1, b]⟩ : Shape).Idx) ax).val
      = if (⟨2, ![1, b]⟩ : Shape).size ax = 1 then 0 else ((ix2 p q : (⟨2, ![a, b]⟩ : Shape).Idx) ((![0, 1] : Fin 2 → Fin 2) ax)).val := fun ax =>
    match ax with
    | ⟨0, _⟩ => rfl
    | ⟨1, _⟩ => hq
  have hk1 : ∀ ax : Fin 1, ((ix1 q : (⟨1, ![b]⟩ : Shape).Idx) ax).val
      = if (⟨1, ![b]⟩ : Shape).size ax = 1 then 0 else ((ix2 (0 : Fin 1) q : (⟨2, ![1, b]⟩ : Shape).Idx) ((![1] : Fin 1 → Fin 2) ax)).val := fun ax =>
    match ax with
    | ⟨0, _⟩ => hq
  rw [broadcastInDim_apply _ g2 _ (ix2 p q) (ix2 (0 : Fin 1) q) hk2, broadcastInDim_apply _ g1 v (ix2 (0 : Fin 1) q) (ix1 q) hk1]

/-- A scalar repeated over a shape is the host's broadcast of the rank-zero constant of the same bits. -/
theorem splat_eq {F : FTy → Type} [FloatOps F] {s : Shape} {φ : FTy} (bits : BitVec φ.bits)
    (g : (⟨0, ![]⟩ : Shape).BroadcastsInDim s ![]) :
    (broadcast s (Scalar.ofBits φ bits : F φ) : FVec F s φ)
      = broadcastInDim s ![] g (constant (F := F) ⟨0, ![]⟩ φ bits) := by
  funext i
  rfl

end Cert.LibDenseLayer

end
-- ==== Proof.LibDenseRows.lean ====
/-
  A dense layer on a block of rows, on the extended reals.

  For an m×k matrix X, a k×n matrix W and a one-row matrix r the function `denseRows X W r` reads, at (a, b),
  Σ_c X(a, c) · W(c, b) + r(0, b). It is computed three ways:
  * a block's product into the zero accumulator plus the row repeated down the block (`block_dense`);
  * the host's product plus its two broadcasts of a length-n vector v, r being that vector laid out as a row
    (`host_dense`);
  * with X first clamped below at zero, which is done entry by entry and so commutes with reading a block
    (`clamp0`, `host_clamp0`, `block_clamp0`).
  A narrowing or a widening change of float format is the identity on the extended reals, so neither shows.
-/
import Idealize.ShloMosaic.PureOps.Ideal.Laws
import Idealize.ShloMosaic.Lib.ValueIdx
import Idealize.ShloMosaic.Lib.ValueLayout
import Idealize.ShloMosaic.Lib.Pipeline.Value
import proofs.«143581_j22153441313372_2_alg».proof.Proof.LibDenseLayer

noncomputable section

open scoped BigOperators

namespace Cert.DenseRows

open Idealize.ShloMosaic Idealize.ShloMosaic.ValueIdx

/-- Row a of X against column b of W, plus the row matrix r at column b. -/
def denseRows {m k n : ℕ} (X : (⟨2, ![m, k]⟩ : Shape).Idx → EReal) (W : (⟨2, ![k, n]⟩ : Shape).Idx → EReal)
    (r : (⟨2, ![1, n]⟩ : Shape).Idx → EReal) : (⟨2, ![m, n]⟩ : Shape).Idx → EReal :=
  fun i => (∑ c : Fin k, X (ix2 (i 0) c) * W (ix2 c (i 1))) + r (ix2 (0 : Fin 1) (i 1))

theorem denseRows_apply {m k n : ℕ} (X : (⟨2, ![m, k]⟩ : Shape).Idx → EReal) (W : (⟨2, ![k, n]⟩ : Shape).Idx → EReal)
    (r : (⟨2, ![1, n]⟩ : Shape).Idx → EReal) (a : Fin m) (b : Fin n) :
    denseRows X W r (ix2 a b) = (∑ c : Fin k, X (ix2 a c) * W (ix2 c b)) + r (ix2 (0 : Fin 1) b) := rfl

/-- A block's plain product into the zero accumulator, plus the one-row matrix repeated down the block, then narrowed:
    the dense layer of the block's rows. -/
theorem block_dense {m k n : ℕ} {φ₁ φ₂ : FTy} (x0 : FVec Ideal ⟨2, ![m, k]⟩ φ₁) (x1 : FVec Ideal ⟨2, ![k, n]⟩ φ₂)
    (x2 : FVec Ideal ⟨2, ![1, n]⟩ .f32)
    (h1 : (⟨2, ![1, n]⟩ : Shape).ShapeCasts ⟨2, ![1, n]⟩) (h2 : (⟨2, ![1, n]⟩ : Shape).Broadcasts ⟨2, ![m, n]⟩)
    (ht : FTy.bf16.bits < FTy.f32.bits) :
    (truncf .bf16 (addf (matmul (DotDims.plain m k n) none x0 x1 (constant ⟨2, ![m, n]⟩ .f32 0x00000000#32))
        (broadcastTo ⟨2, ![m, n]⟩ (shapeCast ⟨2, ![1, n]⟩ x2 h1) h2)) ht : FVec Ideal ⟨2, ![m, n]⟩ .bf16)
      = denseRows x0 x1 x2 := by
  funext i
  obtain ⟨a, b, rfl⟩ : ∃ (a : Fin m) (b : Fin n), i = ix2 a b := ⟨i 0, i 1, eq_ix2 i⟩
  show matmul (DotDims.plain m k n) none x0 x1 (constant ⟨2, ![m, n]⟩ .f32 0x00000000#32) (ix2 a b)
      + broadcastTo ⟨2, ![m, n]⟩ (shapeCast ⟨2, ![1, n]⟩ x2 h1) h2 (ix2 a b) = _
  rw [matmul_plain_zero_apply, broadcastTo_1b_ab_apply, shapeCast_self, denseRows_apply]

/-- The host's plain product plus its two broadcasts of a length-n vector: the dense layer with that vector as the row. -/
theorem host_dense {m k n : ℕ} (A : FVec Ideal ⟨2, ![m, k]⟩ .f32) (B : FVec Ideal ⟨2, ![k, n]⟩ .f32)
    (v : FVec Ideal ⟨1, ![n]⟩ .f32)
    (g1 : (⟨1, ![n]⟩ : Shape).BroadcastsInDim ⟨2, ![1, n]⟩ ![1])
    (g2 : (⟨2, ![1, n]⟩ : Shape).BroadcastsInDim ⟨2, ![m, n]⟩ ![0, 1])
    (h : (⟨1, ![n]⟩ : Shape).ShapeCasts ⟨2, ![1, n]⟩) :
    addf (Host.dotGeneral (DotDims.plain m k n) none A B)
        (broadcastInDim ⟨2, ![m, n]⟩ ![0, 1] g2 (broadcastInDim ⟨2, ![1, n]⟩ ![1] g1 v))
      = denseRows A B (shapeCast ⟨2, ![1, n]⟩ v h) := by
  funext i
  obtain ⟨a, b, rfl⟩ : ∃ (a : Fin m) (b : Fin n), i = ix2 a b := ⟨i 0, i 1, eq_ix2 i⟩
  rw [Cert.LibDenseLayer.dense_apply, denseRows_apply, shapeCast_a_1a_apply]

/-- An array clamped below at zero, entry by entry (zero kept as the all-zero f32 word). -/
def clamp0 {s : Shape} (X : s.Idx → EReal) : s.Idx → EReal :=
  fun i => max (X i) (Ideal.ofBits .f32 0x00000000#32)

/-- The host's maximum with the broadcast zero constant is that clamp. -/
theorem host_clamp0 {s : Shape} (X : FVec Ideal s .f32) (g : (⟨0, ![]⟩ : Shape).BroadcastsInDim s ![]) :
    maximumf X (broadcastInDim s ![] g (constant (F := Ideal) ⟨0, ![]⟩ .f32 0x00000000#32)) = clamp0 X := by
  funext i
  rfl

/-- A block's maximum with the splat of zero, after a cast to its own shape and before narrowing, is that clamp. -/
theorem block_clamp0 {s : Shape} (x : FVec Ideal s .f32) (h : s.ShapeCasts s) (ht : FTy.bf16.bits < FTy.f32.bits) :
    (truncf .bf16 (maximumf (shapeCast s x h) (broadcast s (Scalar.ofBits .f32 0x00000000#32 : Ideal .f32))) ht
        : FVec Ideal s .bf16) = clamp0 x := by
  rw [shapeCast_self]
  funext i
  rfl

/-- Clamping commutes with reading a sub-array: it is done entry by entry. -/
theorem clamp0_comp {s t : Shape} (X : s.Idx → EReal) (e : t.Idx → s.Idx) : (fun y => clamp0 X (e y)) = clamp0 (fun y => X (e y)) := rfl

end Cert.DenseRows

end
-- ==== Proof.EdgeEmbed.lean ====
/-
  The edge-embedding region: 80 grid points, point t holding rows 8000·t … 8000·t + 7999 of the edge features.

  Both of its outputs are dense layers of the whole edge-feature array. Point t writes back, into rows
  8000·t … 8000·t + 7999 of each output, the block's product with the (whole) weight matrix plus the (whole) one-row
  bias; an entry (8000·t + p, q) of that block depends on row 8000·t + p of the features only, so it is the entry of
  the dense layer of the whole array. The 80 blocks tile the 640000 rows, so each output array ends as that layer.
-/
import proofs.«143581_j22153441313372_2_alg».proof.Proof.Gen.KernelIdeal.Frame
import proofs.«143581_j22153441313372_2_alg».proof.Proof.LibDenseRows
import Idealize.ShloMosaic.Lib.Pipeline.Value

set_option maxRecDepth 16384

noncomputable section

open scoped BigOperators

namespace Cert.KernelIdeal.EdgeEmbed

open Idealize.ShloMosaic Idealize.ShloMosaic.TcCoe Idealize.ShloMosaic.ValueIdx Idealize.SL.Sem
open Idealize.ShloMosaic.Pipeline (Dat)
open Cert.KernelIdeal Cert.KernelIdeal.Gen Cert.DenseRows

variable (V : (c : Dev nD) → (b : Ref sig .tc) → Buf (Elt Ideal) ((c : Thread nD τ).loc b))

theorem zero_offsets : (![0, 0] : Fin 2 → Nat) = fun _ => 0 := funext fun a => by fin_cases a <;> rfl

/-! ## The first output: the edge features against the first layer's edge weights -/

/-- The stored value is the dense layer of the three loaded blocks. -/
theorem stored_first (v0 : Vec Ideal S8000x64 .f32) (v2 : Vec Ideal S64x128 .f32) (v8 : Vec Ideal S1x128 .f32) :
    k0_pay2 (F := Ideal) v0 v2 v8 = denseRows (v0) v2 v8 := by
  unfold k0_pay2 k0_pay1
  exact block_dense (φ₁ := .bf16) (φ₂ := .bf16) _ _ v8 _ _ _

/-- The printed index maps over the 80 points: the row block of the first operand and the output block move together
    down the rows, every other block stays at the origin. -/
theorem index_maps_first : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_5.index t (1 : Fin 2) = 0 :=
  (by decide +kernel : ∀ t : Fin grid0.N, _)

/-- Every one of the 80 row blocks is some point's. -/
theorem row_block_first : ∀ q : Fin 80, ∃ t : Fin cfg0.N, win0_5.index t = ![q.val, 0] :=
  (by decide +kernel : ∀ q : Fin 80, ∃ t : Fin grid0.N, win0_5.index t = ![q.val, 0])

/-- Reading the three input blocks at point t and taking their dense layer is reading block t of the dense layer of the
    whole arrays: the first operand's block and the output block hold the same rows, the other two blocks are whole. -/
theorem block_first (X : S640000x64.Idx → EReal) (W : S64x128.Idx → EReal) (r : S1x128.Idx → EReal) (t : Fin cfg0.N) :
    denseRows (((cfg0.win 0).blk t).view.read (Elt Ideal) X) (((cfg0.win 1).blk t).view.read (Elt Ideal) W)
        (((cfg0.win 2).blk t).view.read (Elt Ideal) r)
      = ((cfg0.win 5).blk t).view.read (Elt Ideal) (denseRows X W r) := by
  obtain ⟨e0, e1, e2, e3, e4, e5, e6⟩ := index_maps_first t
  funext j
  show (∑ c' : Fin 64, X (((cfg0.win 0).blk t).view.emb (ix2 (j 0) c' : S8000x64.Idx))
          * W (((cfg0.win 1).blk t).view.emb (ix2 c' (j 1) : S64x128.Idx)))
        + r (((cfg0.win 2).blk t).view.emb (ix2 (0 : Fin 1) (j 1) : S1x128.Idx))
      = (∑ c' : Fin 64, X (ix2 ((((cfg0.win 5).blk t).view.emb j) 0) c')
          * W (ix2 c' ((((cfg0.win 5).blk t).view.emb j) 1)))
        + r (ix2 (0 : Fin 1) ((((cfg0.win 5).blk t).view.emb j) 1))
  have hj0 : (j 0).val < 8000 := (j 0).isLt
  have hj1 : (j 1).val < 128 := (j 1).isLt
  have E0 : ∀ c' : Fin 64, ((cfg0.win 0).blk t).view.emb (ix2 (j 0) c' : S8000x64.Idx)
      = ix2 ((((cfg0.win 5).blk t).view.emb j) 0) c' := fun c' => by
    funext a; apply Fin.ext
    match a with
    | ⟨0, _⟩ => show win0_0.index t (0 : Fin 2) * 8000 + 1 * (j 0).val = win0_5.index t (0 : Fin 2) * 8000 + 1 * (j 0).val; omega
    | ⟨1, _⟩ => show win0_0.index t (1 : Fin 2) * 64 + 1 * c'.val = c'.val; omega
  have E1 : ∀ c' : Fin 64, ((cfg0.win 1).blk t).view.emb (ix2 c' (j 1) : S64x128.Idx)
      = ix2 c' ((((cfg0.win 5).blk t).view.emb j) 1) := fun c' => by
    funext a; apply Fin.ext
    match a with
    | ⟨0, _⟩ => show win0_1.index t (0 : Fin 2) * 64 + 1 * c'.val = c'.val; omega
    | ⟨1, _⟩ => show win0_1.index t (1 : Fin 2) * 128 + 1 * (j 1).val = win0_5.index t (1 : Fin 2) * 128 + 1 * (j 1).val; omega
  have E2 : ((cfg0.win 2).blk t).view.emb (ix2 (0 : Fin 1) (j 1) : S1x128.Idx)
      = ix2 (0 : Fin 1) ((((cfg0.win 5).blk t).view.emb j) 1) := by
    funext a; apply Fin.ext
    match a with
    | ⟨0, _⟩ => show win0_2.index t (0 : Fin 2) * 1 + 1 * 0 = 0; omega
    | ⟨1, _⟩ => show win0_2.index t (1 : Fin 2) * 128 + 1 * (j 1).val = win0_5.index t (1 : Fin 2) * 128 + 1 * (j 1).val; omega
  rw [E2]
  exact congrArg (· + _) (Finset.sum_congr rfl fun c' _ => congrArg₂ (· * ·) (congrArg X (E0 c')) (congrArg W (E1 c')))

/-- What point t writes back is block t of the dense layer of the whole arrays. -/
theorem flushed_first (c : Dev nD) (t : Fin cfg0.N) :
    (dat0 V c).flushed 5 t
      = ((cfg0.win 5).blk t).view.read (Elt Ideal) (denseRows (V c main_arg2) (V c main_arg5) (V c main_v4)) := by
  show (cfg0.win 5).cut (grid0.coords t) ((dat0 V c).after 5 t) = _
  rw [after0_5]
  unfold out0_5
  rw [View.canon_unit_zero zero_offsets]
  simp only [View.ld_unit_zero (S := S8000x64) zero_offsets, View.ld_unit_zero (S := S64x128) zero_offsets,
    View.ld_unit_zero (S := S1x128) zero_offsets]
  rw [stored_first]
  exact block_first (V c main_arg2) (V c main_arg5) (V c main_v4) t

/-- An index of the output array is in point t's block iff each coordinate is in the block's range on its axis. -/
theorem mem_block_first (t : Fin cfg0.N) (i : S640000x128.Idx) :
    i ∈ ((cfg0.win 5).blk t).view.set ↔ ∀ a : Fin 2, win0_5.index t a * S8000x128.size a ≤ (i a).val
      ∧ (i a).val < win0_5.index t a * S8000x128.size a + S8000x128.size a := by
  show i ∈ ((View.whole main_v6_0).slice (win0_5.rect t)).set ↔ _
  rw [View.set_slice_whole, Rect.mem_set_unit]
  exact Iff.rfl

/-- Row i₀ lies in the block of point i₀ / 8000: the 80 blocks cover the array. -/
theorem cover_first (i : S640000x128.Idx) :
    ∃ t : Fin cfg0.N, (cfg0.win 5).flush t = true ∧ i ∈ ((cfg0.win 5).blk t).view.set := by
  have hi0 : (i 0).val < 640000 := (i 0).isLt
  have hi1 : (i 1).val < 128 := (i 1).isLt
  obtain ⟨t, ht⟩ := row_block_first ⟨(i 0).val / 8000, by omega⟩
  have q0 : win0_5.index t (0 : Fin 2) = (i 0).val / 8000 := congrFun ht 0
  have q1 : win0_5.index t (1 : Fin 2) = 0 := congrFun ht 1
  refine ⟨t, flush0_5 t, ?_⟩
  rw [mem_block_first]
  intro a
  match a with
  | ⟨0, _⟩ => show win0_5.index t (0 : Fin 2) * 8000 ≤ (i 0).val ∧ (i 0).val < win0_5.index t (0 : Fin 2) * 8000 + 8000; omega
  | ⟨1, _⟩ => show win0_5.index t (1 : Fin 2) * 128 ≤ (i 1).val ∧ (i 1).val < win0_5.index t (1 : Fin 2) * 128 + 128; omega

/-- THE OUTPUT ARRAY after the region: the dense layer of the arrays as the region finds them. -/
theorem first_output (c : Dev nD) :
    (dat0 V c).arrAt 5 cfg0.N = denseRows (V c main_arg2) (V c main_arg5) (V c main_v4) :=
  (dat0 V c).arrAt_eq_of_cover 5 _ (fun t _ => flushed_first V c t) cover_first

/-! ## The second output: the same features against the second layer's edge weights -/

/-- The stored value is the dense layer of the three loaded blocks. -/
theorem stored_second (v0 : Vec Ideal S8000x64 .f32) (v2 : Vec Ideal S64x128 .f32) (v8 : Vec Ideal S1x128 .f32) :
    k0_pay3 (F := Ideal) v0 v2 v8 = denseRows (v0) v2 v8 := by
  unfold k0_pay3 k0_pay1
  exact block_dense (φ₁ := .bf16) (φ₂ := .bf16) _ _ v8 _ _ _

/-- The printed index maps over the 80 points: the row block of the first operand and the output block move together
    down the rows, every other block stays at the origin. -/
theorem index_maps_second : ∀ t : Fin cfg0.N,
    win0_0.index t (0 : Fin 2) = win0_6.index t (0 : Fin 2) ∧ win0_0.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_6.index t (1 : Fin 2) = 0 :=
  (by decide +kernel : ∀ t : Fin grid0.N, _)

/-- Every one of the 80 row blocks is some point's. -/
theorem row_block_second : ∀ q : Fin 80, ∃ t : Fin cfg0.N, win0_6.index t = ![q.val, 0] :=
  (by decide +kernel : ∀ q : Fin 80, ∃ t : Fin grid0.N, win0_6.index t = ![q.val, 0])

/-- Reading the three input blocks at point t and taking their dense layer is reading block t of the dense layer of the
    whole arrays: the first operand's block and the output block hold the same rows, the other two blocks are whole. -/
theorem block_second (X : S640000x64.Idx → EReal) (W : S64x128.Idx → EReal) (r : S1x128.Idx → EReal) (t : Fin cfg0.N) :
    denseRows (((cfg0.win 0).blk t).view.read (Elt Ideal) X) (((cfg0.win 3).blk t).view.read (Elt Ideal) W)
        (((cfg0.win 4).blk t).view.read (Elt Ideal) r)
      = ((cfg0.win 6).blk t).view.read (Elt Ideal) (denseRows X W r) := by
  obtain ⟨e0, e1, e2, e3, e4, e5, e6⟩ := index_maps_second t
  funext j
  show (∑ c' : Fin 64, X (((cfg0.win 0).blk t).view.emb (ix2 (j 0) c' : S8000x64.Idx))
          * W (((cfg0.win 3).blk t).view.emb (ix2 c' (j 1) : S64x128.Idx)))
        + r (((cfg0.win 4).blk t).view.emb (ix2 (0 : Fin 1) (j 1) : S1x128.Idx))
      = (∑ c' : Fin 64, X (ix2 ((((cfg0.win 6).blk t).view.emb j) 0) c')
          * W (ix2 c' ((((cfg0.win 6).blk t).view.emb j) 1)))
        + r (ix2 (0 : Fin 1) ((((cfg0.win 6).blk t).view.emb j) 1))
  have hj0 : (j 0).val < 8000 := (j 0).isLt
  have hj1 : (j 1).val < 128 := (j 1).isLt
  have E0 : ∀ c' : Fin 64, ((cfg0.win 0).blk t).view.emb (ix2 (j 0) c' : S8000x64.Idx)
      = ix2 ((((cfg0.win 6).blk t).view.emb j) 0) c' := fun c' => by
    funext a; apply Fin.ext
    match a with
    | ⟨0, _⟩ => show win0_0.index t (0 : Fin 2) * 8000 + 1 * (j 0).val = win0_6.index t (0 : Fin 2) * 8000 + 1 * (j 0).val; omega
    | ⟨1, _⟩ => show win0_0.index t (1 : Fin 2) * 64 + 1 * c'.val = c'.val; omega
  have E1 : ∀ c' : Fin 64, ((cfg0.win 3).blk t).view.emb (ix2 c' (j 1) : S64x128.Idx)
      = ix2 c' ((((cfg0.win 6).blk t).view.emb j) 1) := fun c' => by
    funext a; apply Fin.ext
    match a with
    | ⟨0, _⟩ => show win0_3.index t (0 : Fin 2) * 64 + 1 * c'.val = c'.val; omega
    | ⟨1, _⟩ => show win0_3.index t (1 : Fin 2) * 128 + 1 * (j 1).val = win0_6.index t (1 : Fin 2) * 128 + 1 * (j 1).val; omega
  have E2 : ((cfg0.win 4).blk t).view.emb (ix2 (0 : Fin 1) (j 1) : S1x128.Idx)
      = ix2 (0 : Fin 1) ((((cfg0.win 6).blk t).view.emb j) 1) := by
    funext a; apply Fin.ext
    match a with
    | ⟨0, _⟩ => show win0_4.index t (0 : Fin 2) * 1 + 1 * 0 = 0; omega
    | ⟨1, _⟩ => show win0_4.index t (1 : Fin 2) * 128 + 1 * (j 1).val = win0_6.index t (1 : Fin 2) * 128 + 1 * (j 1).val; omega
  rw [E2]
  exact congrArg (· + _) (Finset.sum_congr rfl fun c' _ => congrArg₂ (· * ·) (congrArg X (E0 c')) (congrArg W (E1 c')))

/-- What point t writes back is block t of the dense layer of the whole arrays. -/
theorem flushed_second (c : Dev nD) (t : Fin cfg0.N) :
    (dat0 V c).flushed 6 t
      = ((cfg0.win 6).blk t).view.read (Elt Ideal) (denseRows (V c main_arg2) (V c main_arg9) (V c main_v5)) := by
  show (cfg0.win 6).cut (grid0.coords t) ((dat0 V c).after 6 t) = _
  rw [after0_6]
  unfold out0_6
  rw [View.canon_unit_zero zero_offsets]
  simp only [View.ld_unit_zero (S := S8000x64) zero_offsets, View.ld_unit_zero (S := S64x128) zero_offsets,
    View.ld_unit_zero (S := S1x128) zero_offsets]
  rw [stored_second]
  exact block_second (V c main_arg2) (V c main_arg9) (V c main_v5) t

/-- An index of the output array is in point t's block iff each coordinate is in the block's range on its axis. -/
theorem mem_block_second (t : Fin cfg0.N) (i : S640000x128.Idx) :
    i ∈ ((cfg0.win 6).blk t).view.set ↔ ∀ a : Fin 2, win0_6.index t a * S8000x128.size a ≤ (i a).val
      ∧ (i a).val < win0_6.index t a * S8000x128.size a + S8000x128.size a := by
  show i ∈ ((View.whole main_v6_1).slice (win0_6.rect t)).set ↔ _
  rw [View.set_slice_whole, Rect.mem_set_unit]
  exact Iff.rfl

/-- Row i₀ lies in the block of point i₀ / 8000: the 80 blocks cover the array. -/
theorem cover_second (i : S640000x128.Idx) :
    ∃ t : Fin cfg0.N, (cfg0.win 6).flush t = true ∧ i ∈ ((cfg0.win 6).blk t).view.set := by
  have hi0 : (i 0).val < 640000 := (i 0).isLt
  have hi1 : (i 1).val < 128 := (i 1).isLt
  obtain ⟨t, ht⟩ := row_block_second ⟨(i 0).val / 8000, by omega⟩
  have q0 : win0_6.index t (0 : Fin 2) = (i 0).val / 8000 := congrFun ht 0
  have q1 : win0_6.index t (1 : Fin 2) = 0 := congrFun ht 1
  refine ⟨t, flush0_6 t, ?_⟩
  rw [mem_block_second]
  intro a
  match a with
  | ⟨0, _⟩ => show win0_6.index t (0 : Fin 2) * 8000 ≤ (i 0).val ∧ (i 0).val < win0_6.index t (0 : Fin 2) * 8000 + 8000; omega
  | ⟨1, _⟩ => show win0_6.index t (1 : Fin 2) * 128 ≤ (i 1).val ∧ (i 1).val < win0_6.index t (1 : Fin 2) * 128 + 128; omega

/-- THE OUTPUT ARRAY after the region: the dense layer of the arrays as the region finds them. -/
theorem second_output (c : Dev nD) :
    (dat0 V c).arrAt 6 cfg0.N = denseRows (V c main_arg2) (V c main_arg9) (V c main_v5) :=
  (dat0 V c).arrAt_eq_of_cover 6 _ (fun t _ => flushed_second V c t) cover_second

end Cert.KernelIdeal.EdgeEmbed

end
-- ==== Proof.NodeEmbed.lean ====
/-
  The first node-embedding region: 5 grid points, point t holding rows 8000·t … 8000·t + 7999 of the node features.

  Point t writes back, into the same rows of the output, the block's product with the (whole) weight matrix plus the
  (whole) one-row bias: an entry (8000·t + p, q) depends on row 8000·t + p of the features only, so it is the entry of
  the dense layer of the whole array. The 5 blocks tile the 40000 rows, so the output array ends as that layer.
-/
import proofs.«143581_j22153441313372_2_alg».proof.Proof.Gen.KernelIdeal.Frame
import proofs.«143581_j22153441313372_2_alg».proof.Proof.LibDenseRows
import Idealize.ShloMosaic.Lib.Pipeline.Value

set_option maxRecDepth 16384

noncomputable section

open scoped BigOperators

namespace Cert.KernelIdeal.NodeEmbed

open Idealize.ShloMosaic Idealize.ShloMosaic.TcCoe Idealize.ShloMosaic.ValueIdx Idealize.SL.Sem
open Idealize.ShloMosaic.Pipeline (Dat)
open Cert.KernelIdeal Cert.KernelIdeal.Gen Cert.DenseRows

variable (V : (c : Dev nD) → (b : Ref sig .tc) → Buf (Elt Ideal) ((c : Thread nD τ).loc b))

theorem zero_offsets : (![0, 0] : Fin 2 → Nat) = fun _ => 0 := funext fun a => by fin_cases a <;> rfl

/-! ## The output: the node features against the first layer's node weights -/

/-- The stored value is the dense layer of the three loaded blocks. -/
theorem stored_nodes (v0 : Vec Ideal S8000x128 .f32) (v2 : Vec Ideal S128x128 .f32) (v8 : Vec Ideal S1x128 .f32) :
    k1_pay1 (F := Ideal) v0 v2 v8 = denseRows (v0) v2 v8 := by
  unfold k1_pay1
  exact block_dense (φ₁ := .bf16) (φ₂ := .bf16) _ _ v8 _ _ _

/-- The printed index maps over the 5 points: the row block of the first operand and the output block move together
    down the rows, every other block stays at the origin. -/
theorem index_maps_nodes : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 :=
  (by decide +kernel : ∀ t : Fin grid1.N, _)

/-- Every one of the 5 row blocks is some point's. -/
theorem row_block_nodes : ∀ q : Fin 5, ∃ t : Fin cfg1.N, win1_3.index t = ![q.val, 0] :=
  (by decide +kernel : ∀ q : Fin 5, ∃ t : Fin grid1.N, win1_3.index t = ![q.val, 0])

/-- Reading the three input blocks at point t and taking their dense layer is reading block t of the dense layer of the
    whole arrays: the first operand's block and the output block hold the same rows, the other two blocks are whole. -/
theorem block_nodes (X : S40000x128.Idx → EReal) (W : S128x128.Idx → EReal) (r : S1x128.Idx → EReal) (t : Fin cfg1.N) :
    denseRows (((cfg1.win 0).blk t).view.read (Elt Ideal) X) (((cfg1.win 1).blk t).view.read (Elt Ideal) W)
        (((cfg1.win 2).blk t).view.read (Elt Ideal) r)
      = ((cfg1.win 3).blk t).view.read (Elt Ideal) (denseRows X W r) := by
  obtain ⟨e0, e1, e2, e3, e4, e5, e6⟩ := index_maps_nodes t
  funext j
  show (∑ c' : Fin 128, X (((cfg1.win 0).blk t).view.emb (ix2 (j 0) c' : S8000x128.Idx))
          * W (((cfg1.win 1).blk t).view.emb (ix2 c' (j 1) : S128x128.Idx)))
        + r (((cfg1.win 2).blk t).view.emb (ix2 (0 : Fin 1) (j 1) : S1x128.Idx))
      = (∑ c' : Fin 128, X (ix2 ((((cfg1.win 3).blk t).view.emb j) 0) c')
          * W (ix2 c' ((((cfg1.win 3).blk t).view.emb j) 1)))
        + r (ix2 (0 : Fin 1) ((((cfg1.win 3).blk t).view.emb j) 1))
  have hj0 : (j 0).val < 8000 := (j 0).isLt
  have hj1 : (j 1).val < 128 := (j 1).isLt
  have E0 : ∀ c' : Fin 128, ((cfg1.win 0).blk t).view.emb (ix2 (j 0) c' : S8000x128.Idx)
      = ix2 ((((cfg1.win 3).blk t).view.emb j) 0) c' := fun c' => by
    funext a; apply Fin.ext
    match a with
    | ⟨0, _⟩ => show win1_0.index t (0 : Fin 2) * 8000 + 1 * (j 0).val = win1_3.index t (0 : Fin 2) * 8000 + 1 * (j 0).val; omega
    | ⟨1, _⟩ => show win1_0.index t (1 : Fin 2) * 128 + 1 * c'.val = c'.val; omega
  have E1 : ∀ c' : Fin 128, ((cfg1.win 1).blk t).view.emb (ix2 c' (j 1) : S128x128.Idx)
      = ix2 c' ((((cfg1.win 3).blk t).view.emb j) 1) := fun c' => by
    funext a; apply Fin.ext
    match a with
    | ⟨0, _⟩ => show win1_1.index t (0 : Fin 2) * 128 + 1 * c'.val = c'.val; omega
    | ⟨1, _⟩ => show win1_1.index t (1 : Fin 2) * 128 + 1 * (j 1).val = win1_3.index t (1 : Fin 2) * 128 + 1 * (j 1).val; omega
  have E2 : ((cfg1.win 2).blk t).view.emb (ix2 (0 : Fin 1) (j 1) : S1x128.Idx)
      = ix2 (0 : Fin 1) ((((cfg1.win 3).blk t).view.emb j) 1) := by
    funext a; apply Fin.ext
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega
  rw [E2]
  exact congrArg (· + _) (Finset.sum_congr rfl fun c' _ => congrArg₂ (· * ·) (congrArg X (E0 c')) (congrArg W (E1 c')))

/-- What point t writes back is block t of the dense layer of the whole arrays. -/
theorem flushed_nodes (c : Dev nD) (t : Fin cfg1.N) :
    (dat1 V c).flushed 3 t
      = ((cfg1.win 3).blk t).view.read (Elt Ideal) (denseRows (V c main_arg0) (V c main_arg3) (V c main_v7)) := by
  show (cfg1.win 3).cut (grid1.coords t) ((dat1 V c).after 3 t) = _
  rw [after1_3]
  unfold out1_3
  rw [View.canon_unit_zero zero_offsets]
  simp only [View.ld_unit_zero (S := S8000x128) zero_offsets, View.ld_unit_zero (S := S128x128) zero_offsets,
    View.ld_unit_zero (S := S1x128) zero_offsets]
  rw [stored_nodes]
  exact block_nodes (V c main_arg0) (V c main_arg3) (V c main_v7) t

/-- An index of the output array is in point t's block iff each coordinate is in the block's range on its axis. -/
theorem mem_block_nodes (t : Fin cfg1.N) (i : S40000x128.Idx) :
    i ∈ ((cfg1.win 3).blk t).view.set ↔ ∀ a : Fin 2, win1_3.index t a * S8000x128.size a ≤ (i a).val
      ∧ (i a).val < win1_3.index t a * S8000x128.size a + S8000x128.size a := by
  show i ∈ ((View.whole main_v8).slice (win1_3.rect t)).set ↔ _
  rw [View.set_slice_whole, Rect.mem_set_unit]
  exact Iff.rfl

/-- Row i₀ lies in the block of point i₀ / 8000: the 5 blocks cover the array. -/
theorem cover_nodes (i : S40000x128.Idx) :
    ∃ t : Fin cfg1.N, (cfg1.win 3).flush t = true ∧ i ∈ ((cfg1.win 3).blk t).view.set := by
  have hi0 : (i 0).val < 40000 := (i 0).isLt
  have hi1 : (i 1).val < 128 := (i 1).isLt
  obtain ⟨t, ht⟩ := row_block_nodes ⟨(i 0).val / 8000, by omega⟩
  have q0 : win1_3.index t (0 : Fin 2) = (i 0).val / 8000 := congrFun ht 0
  have q1 : win1_3.index t (1 : Fin 2) = 0 := congrFun ht 1
  refine ⟨t, flush1_3 t, ?_⟩
  rw [mem_block_nodes]
  intro a
  match a with
  | ⟨0, _⟩ => show win1_3.index t (0 : Fin 2) * 8000 ≤ (i 0).val ∧ (i 0).val < win1_3.index t (0 : Fin 2) * 8000 + 8000; omega
  | ⟨1, _⟩ => show win1_3.index t (1 : Fin 2) * 128 ≤ (i 1).val ∧ (i 1).val < win1_3.index t (1 : Fin 2) * 128 + 128; omega

/-- THE OUTPUT ARRAY after the region: the dense layer of the arrays as the region finds them. -/
theorem nodes_output (c : Dev nD) :
    (dat1 V c).arrAt 3 cfg1.N = denseRows (V c main_arg0) (V c main_arg3) (V c main_v7) :=
  (dat1 V c).arrAt_eq_of_cover 3 _ (fun t _ => flushed_nodes V c t) cover_nodes

end Cert.KernelIdeal.NodeEmbed

end
-- ==== Proof.NodeEmbedClamped.lean ====
/-
  The second node-embedding region: 5 grid points, point t holding rows 8000·t … 8000·t + 7999 of the aggregated
  first-layer messages.

  The body clamps its block below at zero, entry by entry, before the product; clamping commutes with reading a block,
  so point t writes back block t of the dense layer of the clamped whole array. The 5 blocks tile the 40000 rows, so the
  output array ends as that layer.
-/
import proofs.«143581_j22153441313372_2_alg».proof.Proof.Gen.KernelIdeal.Frame
import proofs.«143581_j22153441313372_2_alg».proof.Proof.LibDenseRows
import Idealize.ShloMosaic.Lib.Pipeline.Value

set_option maxRecDepth 16384

noncomputable section

open scoped BigOperators

namespace Cert.KernelIdeal.NodeEmbedClamped

open Idealize.ShloMosaic Idealize.ShloMosaic.TcCoe Idealize.ShloMosaic.ValueIdx Idealize.SL.Sem
open Idealize.ShloMosaic.Pipeline (Dat)
open Cert.KernelIdeal Cert.KernelIdeal.Gen Cert.DenseRows

variable (V : (c : Dev nD) → (b : Ref sig .tc) → Buf (Elt Ideal) ((c : Thread nD τ).loc b))

theorem zero_offsets : (![0, 0] : Fin 2 → Nat) = fun _ => 0 := funext fun a => by fin_cases a <;> rfl

/-! ## The output: the clamped messages against the second layer's node weights -/

/-- The stored value is the dense layer of the three loaded blocks, the first clamped below at zero. -/
theorem stored_clamped (v0 : Vec Ideal S8000x128 .f32) (v2 : Vec Ideal S128x128 .f32) (v8 : Vec Ideal S1x128 .f32) :
    k2_pay1 (F := Ideal) v0 v2 v8 = denseRows (clamp0 v0) v2 v8 := by
  unfold k2_pay1
  refine (block_dense (φ₁ := .bf16) (φ₂ := .bf16) _ _ v8 _ _ _).trans ?_
  exact congrArg (fun x => denseRows x v2 v8) (block_clamp0 (s := S8000x128) v0 shapeCasts_S8000x128_S8000x128 bitsLt_bf16_f32)

/-- The printed index maps over the 5 points: the row block of the first operand and the output block move together
    down the rows, every other block stays at the origin. -/
theorem index_maps_clamped : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 :=
  (by decide +kernel : ∀ t : Fin grid2.N, _)

/-- Every one of the 5 row blocks is some point's. -/
theorem row_block_clamped : ∀ q : Fin 5, ∃ t : Fin cfg2.N, win2_3.index t = ![q.val, 0] :=
  (by decide +kernel : ∀ q : Fin 5, ∃ t : Fin grid2.N, win2_3.index t = ![q.val, 0])

/-- Reading the three input blocks at point t and taking their dense layer is reading block t of the dense layer of the
    whole arrays: the first operand's block and the output block hold the same rows, the other two blocks are whole. -/
theorem block_clamped (X : S40000x128.Idx → EReal) (W : S128x128.Idx → EReal) (r : S1x128.Idx → EReal) (t : Fin cfg2.N) :
    denseRows (((cfg2.win 0).blk t).view.read (Elt Ideal) X) (((cfg2.win 1).blk t).view.read (Elt Ideal) W)
        (((cfg2.win 2).blk t).view.read (Elt Ideal) r)
      = ((cfg2.win 3).blk t).view.read (Elt Ideal) (denseRows X W r) := by
  obtain ⟨e0, e1, e2, e3, e4, e5, e6⟩ := index_maps_clamped t
  funext j
  show (∑ c' : Fin 128, X (((cfg2.win 0).blk t).view.emb (ix2 (j 0) c' : S8000x128.Idx))
          * W (((cfg2.win 1).blk t).view.emb (ix2 c' (j 1) : S128x128.Idx)))
        + r (((cfg2.win 2).blk t).view.emb (ix2 (0 : Fin 1) (j 1) : S1x128.Idx))
      = (∑ c' : Fin 128, X (ix2 ((((cfg2.win 3).blk t).view.emb j) 0) c')
          * W (ix2 c' ((((cfg2.win 3).blk t).view.emb j) 1)))
        + r (ix2 (0 : Fin 1) ((((cfg2.win 3).blk t).view.emb j) 1))
  have hj0 : (j 0).val < 8000 := (j 0).isLt
  have hj1 : (j 1).val < 128 := (j 1).isLt
  have E0 : ∀ c' : Fin 128, ((cfg2.win 0).blk t).view.emb (ix2 (j 0) c' : S8000x128.Idx)
      = ix2 ((((cfg2.win 3).blk t).view.emb j) 0) c' := fun c' => by
    funext a; apply Fin.ext
    match a with
    | ⟨0, _⟩ => show win2_0.index t (0 : Fin 2) * 8000 + 1 * (j 0).val = win2_3.index t (0 : Fin 2) * 8000 + 1 * (j 0).val; omega
    | ⟨1, _⟩ => show win2_0.index t (1 : Fin 2) * 128 + 1 * c'.val = c'.val; omega
  have E1 : ∀ c' : Fin 128, ((cfg2.win 1).blk t).view.emb (ix2 c' (j 1) : S128x128.Idx)
      = ix2 c' ((((cfg2.win 3).blk t).view.emb j) 1) := fun c' => by
    funext a; apply Fin.ext
    match a with
    | ⟨0, _⟩ => show win2_1.index t (0 : Fin 2) * 128 + 1 * c'.val = c'.val; omega
    | ⟨1, _⟩ => show win2_1.index t (1 : Fin 2) * 128 + 1 * (j 1).val = win2_3.index t (1 : Fin 2) * 128 + 1 * (j 1).val; omega
  have E2 : ((cfg2.win 2).blk t).view.emb (ix2 (0 : Fin 1) (j 1) : S1x128.Idx)
      = ix2 (0 : Fin 1) ((((cfg2.win 3).blk t).view.emb j) 1) := by
    funext a; apply Fin.ext
    match a with
    | ⟨0, _⟩ => show win2_2.index t (0 : Fin 2) * 1 + 1 * 0 = 0; omega
    | ⟨1, _⟩ => show win2_2.index t (1 : Fin 2) * 128 + 1 * (j 1).val = win2_3.index t (1 : Fin 2) * 128 + 1 * (j 1).val; omega
  rw [E2]
  exact congrArg (· + _) (Finset.sum_congr rfl fun c' _ => congrArg₂ (· * ·) (congrArg X (E0 c')) (congrArg W (E1 c')))

/-- What point t writes back is block t of the dense layer of the whole arrays. -/
theorem flushed_clamped (c : Dev nD) (t : Fin cfg2.N) :
    (dat2 V c).flushed 3 t
      = ((cfg2.win 3).blk t).view.read (Elt Ideal) (denseRows (clamp0 (V c main_v21)) (V c main_arg7) (V c main_v22)) := by
  show (cfg2.win 3).cut (grid2.coords t) ((dat2 V c).after 3 t) = _
  rw [after2_3]
  unfold out2_3
  rw [View.canon_unit_zero zero_offsets]
  simp only [View.ld_unit_zero (S := S8000x128) zero_offsets, View.ld_unit_zero (S := S128x128) zero_offsets,
    View.ld_unit_zero (S := S1x128) zero_offsets]
  rw [stored_clamped]
  exact block_clamped (clamp0 (V c main_v21)) (V c main_arg7) (V c main_v22) t

/-- An index of the output array is in point t's block iff each coordinate is in the block's range on its axis. -/
theorem mem_block_clamped (t : Fin cfg2.N) (i : S40000x128.Idx) :
    i ∈ ((cfg2.win 3).blk t).view.set ↔ ∀ a : Fin 2, win2_3.index t a * S8000x128.size a ≤ (i a).val
      ∧ (i a).val < win2_3.index t a * S8000x128.size a + S8000x128.size a := by
  show i ∈ ((View.whole main_v23).slice (win2_3.rect t)).set ↔ _
  rw [View.set_slice_whole, Rect.mem_set_unit]
  exact Iff.rfl

/-- Row i₀ lies in the block of point i₀ / 8000: the 5 blocks cover the array. -/
theorem cover_clamped (i : S40000x128.Idx) :
    ∃ t : Fin cfg2.N, (cfg2.win 3).flush t = true ∧ i ∈ ((cfg2.win 3).blk t).view.set := by
  have hi0 : (i 0).val < 40000 := (i 0).isLt
  have hi1 : (i 1).val < 128 := (i 1).isLt
  obtain ⟨t, ht⟩ := row_block_clamped ⟨(i 0).val / 8000, by omega⟩
  have q0 : win2_3.index t (0 : Fin 2) = (i 0).val / 8000 := congrFun ht 0
  have q1 : win2_3.index t (1 : Fin 2) = 0 := congrFun ht 1
  refine ⟨t, flush2_3 t, ?_⟩
  rw [mem_block_clamped]
  intro a
  match a with
  | ⟨0, _⟩ => show win2_3.index t (0 : Fin 2) * 8000 ≤ (i 0).val ∧ (i 0).val < win2_3.index t (0 : Fin 2) * 8000 + 8000; omega
  | ⟨1, _⟩ => show win2_3.index t (1 : Fin 2) * 128 ≤ (i 1).val ∧ (i 1).val < win2_3.index t (1 : Fin 2) * 128 + 128; omega

/-- THE OUTPUT ARRAY after the region: the dense layer of the arrays as the region finds them. -/
theorem clamped_output (c : Dev nD) :
    (dat2 V c).arrAt 3 cfg2.N = denseRows (clamp0 (V c main_v21)) (V c main_arg7) (V c main_v22) :=
  (dat2 V c).arrAt_eq_of_cover 3 _ (fun t _ => flushed_clamped V c t) cover_clamped

end Cert.KernelIdeal.NodeEmbedClamped

end
-- ==== Proof.LibAfterAppend.lean ====
/-
  A line of host operations run in two parts.

  The buffer contents after a list of host operations are a fold of the operations over the starting contents, so the
  contents after a concatenation are those after the second part, started from what the first part left. A long line
  one of whose intermediate results is read several times can thus be read part by part, the shared result kept as
  one term.
-/
import Idealize.ShloMosaic.Lib.StableHlo.Run

namespace Cert.LibAfterAppend

open Idealize.ShloMosaic Idealize.ShloMosaic.StableHlo

variable {τ : Topo} {sig : RefSig} {Val : EltTy → Type}

/-- Running `l₁ ++ l₂` from the contents `V` is running `l₂` from what `l₁` leaves of `V`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.LibAfterAppend
-- ==== Proof.HostChain.lean ====
/-
  The host side of the idealized kernel's program, stretch by stretch.

  Between and after the three kernel regions the program works on whole arrays: it takes the two rows of the edge
  table as source and destination node numbers, wraps a negative source number by the node count, gathers the node
  embedding's rows at the sources, adds the edge embedding, and sums the messages into their destination rows
  (`passMessages`); after the second layer it sums, over the nodes whose row is not constant, the rows of the result
  (`pool`). Here each stretch is read as those functions of the buffers it starts from, whatever they hold.
-/
import proofs.«143581_j22153441313372_2_alg».proof.Proof.Gen.KernelIdeal.Launch
import Idealize.ShloMosaic.Lib.StableHlo.Run
import proofs.«143581_j22153441313372_2_alg».proof.Proof.LibAfterAppend
import Idealize.ShloMosaic.PureOps.Ideal

set_option maxRecDepth 16384

noncomputable section

namespace Cert.KernelIdeal.Chain

open Idealize.ShloMosaic Idealize.ShloMosaic.TcCoe Idealize.ShloMosaic.StableHlo
open Cert.KernelIdeal Cert.KernelIdeal.Gen

/-- Row 0 of the [2, 640000] edge table as a flat vector: the source node of every edge. -/
def sources (ei : IVec S2x640000 32) : IVec S640000 32 :=
  shapeCast S640000 (extractStridedSlice S1x640000 ![0, 0] ei slices_S2x640000_S1x640000_0_0) shapeCasts_S1x640000_S640000

/-- Row 1 of the edge table: the destination node of every edge. -/
def targets (ei : IVec S2x640000 32) : IVec S640000 32 :=
  shapeCast S640000 (extractStridedSlice S1x640000 ![1, 0] ei slices_S2x640000_S1x640000_1_0) shapeCasts_S1x640000_S640000

/-- A length-128 vector laid out as a [1, 128] row. -/
def asRow (v : FVec Ideal S128 .f32) : FVec Ideal S1x128 .f32 := shapeCast S1x128 v shapeCasts_S128_S1x128

/-- One round of message passing: row `src` of `h` (a negative number wrapped by 40000) plus the edge's row of `e`,
    summed into row `dst` of a zero array. -/
def passMessages (h : FVec Ideal S40000x128 .f32) (e : FVec Ideal S640000x128 .f32) (src dst : IVec S640000 32) :
    FVec Ideal S40000x128 .f32 :=
  Host.scatterAdd scatter_S40000x128_S640000x1_S640000x128_1_0_0_1
    (broadcastInDim S40000x128 ![] bcast_S_S40000x128 (constant S_ .f32 0x00000000#32))
    (broadcastInDim S640000x1 ![0] bcast_S640000_S640000x1_0 dst)
    (addf (Host.gather gather_S40000x128_S640000x1_S640000x128_1_0_n_n_0_1_1128 h
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 40000#32))) src)))
      e)

/-- The sum over the nodes of the rows whose largest and smallest entries differ; a constant row counts as zero. -/
def pool (x : FVec Ideal S40000x128 .f32) : FVec Ideal S128 .f32 :=
  Host.reduceAdd
    (select
      (broadcastInDim S40000x128 ![0, 1] bcast_S40000x1_S40000x128_0_1
        (broadcastInDim S40000x1 ![0] bcast_S40000_S40000x1_0
          (cmpf .une
            (Host.reduce FloatOps.maximumf x (constant S_ .f32 0xFF800000#32) reducesTo_S40000x128_S40000_d1 h_S_)
            (Host.reduce FloatOps.minimumf x (constant S_ .f32 0x7F800000#32) reducesTo_S40000x128_S40000_d1 h_S_))))
      x
      (broadcastInDim S40000x128 ![] bcast_S_S40000x128 (id (constant S_ .f32 0x00000000#32))))
    (constant S_ .f32 0x00000000#32) reducesTo_S40000x128_S128_d0 h_S_

variable (B : Valuation τ sig (Elt Ideal))

/-! ## The first stretch: the edge table's two rows, and two bias vectors as rows -/

theorem first_sources : after hostOps0 B (Proc.devRef .tc main_v1) = sources (B (Proc.devRef .tc main_arg1)) := by
  dsimp only [hostOps0]; after_results; rfl
theorem first_targets : after hostOps0 B (Proc.devRef .tc main_v3) = targets (B (Proc.devRef .tc main_arg1)) := by
  dsimp only [hostOps0]; after_results; rfl
theorem first_row4 : after hostOps0 B (Proc.devRef .tc main_v4) = asRow (B (Proc.devRef .tc main_arg6)) := by
  dsimp only [hostOps0]; after_results; rfl
theorem first_row5 : after hostOps0 B (Proc.devRef .tc main_v5) = asRow (B (Proc.devRef .tc main_arg10)) := by
  dsimp only [hostOps0]; after_results; rfl
theorem first_arg0 : after hostOps0 B (Proc.devRef .tc main_arg0) = B (Proc.devRef .tc main_arg0) := by
  dsimp only [hostOps0]; after_results
theorem first_arg2 : after hostOps0 B (Proc.devRef .tc main_arg2) = B (Proc.devRef .tc main_arg2) := by
  dsimp only [hostOps0]; after_results
theorem first_arg3 : after hostOps0 B (Proc.devRef .tc main_arg3) = B (Proc.devRef .tc main_arg3) := by
  dsimp only [hostOps0]; after_results
theorem first_arg4 : after hostOps0 B (Proc.devRef .tc main_arg4) = B (Proc.devRef .tc main_arg4) := by
  dsimp only [hostOps0]; after_results
theorem first_arg5 : after hostOps0 B (Proc.devRef .tc main_arg5) = B (Proc.devRef .tc main_arg5) := by
  dsimp only [hostOps0]; after_results
theorem first_arg7 : after hostOps0 B (Proc.devRef .tc main_arg7) = B (Proc.devRef .tc main_arg7) := by
  dsimp only [hostOps0]; after_results
theorem first_arg8 : after hostOps0 B (Proc.devRef .tc main_arg8) = B (Proc.devRef .tc main_arg8) := by
  dsimp only [hostOps0]; after_results
theorem first_arg9 : after hostOps0 B (Proc.devRef .tc main_arg9) = B (Proc.devRef .tc main_arg9) := by
  dsimp only [hostOps0]; after_results

/-! ## The second stretch: one more bias vector as a row -/

theorem second_row7 : after hostOps1 B (Proc.devRef .tc main_v7) = asRow (B (Proc.devRef .tc main_arg4)) := by
  dsimp only [hostOps1]; after_results; rfl
theorem second_keeps (b : Ref sig .tc) (hb : b ≠ main_v7) : after hostOps1 B (Proc.devRef .tc b) = B (Proc.devRef .tc b) := by
  dsimp only [hostOps1]; simp only [after_cons, after_nil]; rw [reshape_result_ne]; exact hb

/-! ## The third stretch: the first round of message passing, and the last bias vector as a row -/

theorem third_messages : after hostOps2 B (Proc.devRef .tc main_v21)
    = passMessages (B (Proc.devRef .tc main_v8)) (B (Proc.devRef .tc main_v6_0)) (B (Proc.devRef .tc main_v1))
        (B (Proc.devRef .tc main_v3)) := by
  dsimp only [hostOps2]; after_results; rfl
theorem third_row22 : after hostOps2 B (Proc.devRef .tc main_v22) = asRow (B (Proc.devRef .tc main_arg8)) := by
  dsimp only [hostOps2]; after_results; rfl
theorem third_arg7 : after hostOps2 B (Proc.devRef .tc main_arg7) = B (Proc.devRef .tc main_arg7) := by
  dsimp only [hostOps2]; after_results
theorem third_sources : after hostOps2 B (Proc.devRef .tc main_v1) = B (Proc.devRef .tc main_v1) := by
  dsimp only [hostOps2]; after_results
theorem third_targets : after hostOps2 B (Proc.devRef .tc main_v3) = B (Proc.devRef .tc main_v3) := by
  dsimp only [hostOps2]; after_results
theorem third_edges : after hostOps2 B (Proc.devRef .tc main_v6_1) = B (Proc.devRef .tc main_v6_1) := by
  dsimp only [hostOps2]; after_results

/-! ## The last three stretches: the second round of message passing, then the pooling -/

/-- Per node, whether its row's largest and smallest entries differ, as a [40000, 1] column of bits. -/
def rowVaries (x : FVec Ideal S40000x128 .f32) : IVec S40000x1 1 :=
  broadcastInDim S40000x1 ![0] bcast_S40000_S40000x1_0
    (cmpf .une
      (Host.reduce FloatOps.maximumf x (constant S_ .f32 0xFF800000#32) reducesTo_S40000x128_S40000_d1 h_S_)
      (Host.reduce FloatOps.minimumf x (constant S_ .f32 0x7F800000#32) reducesTo_S40000x128_S40000_d1 h_S_))

section Split
variable {F : FTy → Type} [FloatOps F]

/-- The fourth stretch's first sixteen operations: the second round of message passing. -/
abbrev roundOps : List (HloOp τ sig (Elt F)) :=
  [ StableHlo.nullary main_c_1 (constantI S_ 32 0#32),
    StableHlo.unary main_c_1 main_v24 (broadcastInDim S640000 ![] bcast_S_S640000 : (⟨S_, .i32⟩ : BufTy).Contents (Elt F) → (⟨S640000, .i32⟩ : BufTy).Contents (Elt F)),
    StableHlo.binary main_v1 main_v24 main_v25 (cmpi .slt : (⟨S640000, .i32⟩ : BufTy).Contents (Elt F) → (⟨S640000, .i32⟩ : BufTy).Contents (Elt F) → (⟨S640000, .i1⟩ : BufTy).Contents (Elt F)),
    StableHlo.nullary main_c_2 (constantI S_ 32 40000#32),
    StableHlo.unary main_c_2 main_v26 (broadcastInDim S640000 ![] bcast_S_S640000 : (⟨S_, .i32⟩ : BufTy).Contents (Elt F) → (⟨S640000, .i32⟩ : BufTy).Contents (Elt F)),
    StableHlo.binary main_v1 main_v26 main_v27 (addi : (⟨S640000, .i32⟩ : BufTy).Contents (Elt F) → (⟨S640000, .i32⟩ : BufTy).Contents (Elt F) → (⟨S640000, .i32⟩ : BufTy).Contents (Elt F)),
    StableHlo.ternary main_v25 main_v27 main_v1 main_v28 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v28 main_v29 (broadcastInDim S640000x1 ![0] bcast_S640000_S640000x1_0 : (⟨S640000, .i32⟩ : BufTy).Contents (Elt F) → (⟨S640000x1, .i32⟩ : BufTy).Contents (Elt F)),
    StableHlo.binary main_v23 main_v29 main_v30 ((fun x i => Host.gather gather_S40000x128_S640000x1_S640000x128_1_0_n_n_0_1_1128 x i) : (⟨S40000x128, .bf16⟩ : BufTy).Contents (Elt F) → (⟨S640000x1, .i32⟩ : BufTy).Contents (Elt F) → (⟨S640000x128, .bf16⟩ : BufTy).Contents (Elt F)),
    StableHlo.unary main_v30 main_v31 ((extf .f32 · bitsLt_bf16_f32) : (⟨S640000x128, .bf16⟩ : BufTy).Contents (Elt F) → (⟨S640000x128, .f32⟩ : BufTy).Contents (Elt F)),
    StableHlo.unary main_v6_1 main_v32 ((extf .f32 · bitsLt_bf16_f32) : (⟨S640000x128, .bf16⟩ : BufTy).Contents (Elt F) → (⟨S640000x128, .f32⟩ : BufTy).Contents (Elt F)),
    StableHlo.binary main_v31 main_v32 main_v33 (addf : (⟨S640000x128, .f32⟩ : BufTy).Contents (Elt F) → (⟨S640000x128, .f32⟩ : BufTy).Contents (Elt F) → (⟨S640000x128, .f32⟩ : BufTy).Contents (Elt F)),
    StableHlo.nullary main_cst_3 (constant S_ .f32 0x00000000#32),
    StableHlo.unary main_cst_3 main_v34 (broadcastInDim S40000x128 ![] bcast_S_S40000x128 : (⟨S_, .f32⟩ : BufTy).Contents (Elt F) → (⟨S40000x128, .f32⟩ : BufTy).Contents (Elt F)),
    StableHlo.unary main_v3 main_v35 (broadcastInDim S640000x1 ![0] bcast_S640000_S640000x1_0 : (⟨S640000, .i32⟩ : BufTy).Contents (Elt F) → (⟨S640000x1, .i32⟩ : BufTy).Contents (Elt F)),
    StableHlo.ternary main_v34 main_v35 main_v33 main_v36 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)) ]

/-- Its last seven: the row extrema, their comparison, and the zero the constant rows are replaced by. -/
abbrev flagOps : List (HloOp τ sig (Elt F)) :=
  [ StableHlo.nullary main_cst_4 (constant S_ .f32 0xFF800000#32),
    StableHlo.binary main_v36 main_cst_4 main_v37 ((fun x v => Host.reduce FloatOps.maximumf x v reducesTo_S40000x128_S40000_d1 h_S_) : (⟨S40000x128, .f32⟩ : BufTy).Contents (Elt F) → (⟨S_, .f32⟩ : BufTy).Contents (Elt F) → (⟨S40000, .f32⟩ : BufTy).Contents (Elt F)),
    StableHlo.nullary main_cst_5 (constant S_ .f32 0x7F800000#32),
    StableHlo.binary main_v36 main_cst_5 main_v38 ((fun x v => Host.reduce FloatOps.minimumf x v reducesTo_S40000x128_S40000_d1 h_S_) : (⟨S40000x128, .f32⟩ : BufTy).Contents (Elt F) → (⟨S_, .f32⟩ : BufTy).Contents (Elt F) → (⟨S40000, .f32⟩ : BufTy).Contents (Elt F)),
    StableHlo.binary main_v37 main_v38 main_v39 (cmpf .une : (⟨S40000, .f32⟩ : BufTy).Contents (Elt F) → (⟨S40000, .f32⟩ : BufTy).Contents (Elt F) → (⟨S40000, .i1⟩ : BufTy).Contents (Elt F)),
    StableHlo.unary main_v39 main_v40 (broadcastInDim S40000x1 ![0] bcast_S40000_S40000x1_0 : (⟨S40000, .i1⟩ : BufTy).Contents (Elt F) → (⟨S40000x1, .i1⟩ : BufTy).Contents (Elt F)),
    StableHlo.nullary main_cst_6 (constant S_ .f32 0x00000000#32) ]

theorem fourth_split (V : Valuation τ sig (Elt F)) : after hostOps3 V = after flagOps (after roundOps V) :=
  Cert.LibAfterAppend.after_append roundOps flagOps V

end Split

theorem round_messages : after roundOps B (Proc.devRef .tc main_v36)
    = passMessages (B (Proc.devRef .tc main_v23)) (B (Proc.devRef .tc main_v6_1)) (B (Proc.devRef .tc main_v1))
        (B (Proc.devRef .tc main_v3)) := by
  dsimp only [roundOps]; after_results; rfl

theorem flag_messages : after flagOps B (Proc.devRef .tc main_v36) = B (Proc.devRef .tc main_v36) := by
  dsimp only [flagOps]; after_results

theorem flag_zero : after flagOps B (Proc.devRef .tc main_cst_6) = constant (F := Ideal) S_ .f32 0x00000000#32 := by
  dsimp only [flagOps]; after_results

theorem flag_varies : after flagOps B (Proc.devRef .tc main_v40) = rowVaries (B (Proc.devRef .tc main_v36)) := by
  dsimp only [flagOps]; after_results; rfl

theorem fifth_selected : after hostOps3_1 B (Proc.devRef .tc main_v41)
    = select (broadcastInDim S40000x128 ![0, 1] bcast_S40000x1_S40000x128_0_1 (B (Proc.devRef .tc main_v40)))
        (B (Proc.devRef .tc main_v36))
        (broadcastInDim S40000x128 ![] bcast_S_S40000x128 (id (B (Proc.devRef .tc main_cst_6)))) := by
  dsimp only [hostOps3_1]; after_results; rfl

theorem sixth_sum : after hostOps3_2 B (Proc.devRef .tc main_v42)
    = Host.reduceAdd (F := Ideal) (B (Proc.devRef .tc main_v41)) (constant (F := Ideal) S_ .f32 0x00000000#32)
        reducesTo_S40000x128_S128_d0 h_S_ := by
  dsimp only [hostOps3_2]; after_results

theorem last_result : after hostOps3_2 (after hostOps3_1 (after hostOps3 B)) (Proc.devRef .tc main_v42)
    = pool (passMessages (B (Proc.devRef .tc main_v23)) (B (Proc.devRef .tc main_v6_1)) (B (Proc.devRef .tc main_v1))
        (B (Proc.devRef .tc main_v3))) := by
  rw [sixth_sum, fifth_selected, fourth_split, flag_varies, flag_messages, flag_zero, round_messages]
  try rfl

end Cert.KernelIdeal.Chain

end
-- ==== Proof.KernelRun.lean ====
/-
  The idealized kernel's run with every buffer named.

  The program is nine segments: host stretches and three kernel regions. Folding each stretch's operations and each
  region's write-backs over the launch memory gives the contents of every buffer at the last boundary; from any
  memory with zero counters every weakly fair execution ends, nothing faulting, with every buffer that outlives the
  regions at those contents.
-/
import proofs.«143581_j22153441313372_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with each buffer that outlives the regions at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The same, read at one buffer that is not a staging buffer. -/
theorem run_at (b : Ref sig .tc) (hb : ¬ (Proc.devRef .tc b : DevRef τ sig).isScoped) :
    θ_run defs (onTc (τ := τ) (main (F := F))) ⟨m, fun _ => 0, ρ⟩ (fun r => ∀ c : Dev nD,
      r.2.mem ((c : Thread nD τ).loc b) = W9 m ρ c (Proc.devRef .tc b)) :=
  (θ_run defs _ _).mono (fun r h c => h c _ (mem_uc b hb)) (run_all m ρ)

end Cert.KernelIdeal.KRun

end
-- ==== Proof.KernelValue.lean ====
/-
  The idealized kernel's result as one function of its argument arrays.

  `result` is the two-layer network written on whole arrays: each layer embeds the nodes and the edges by a dense layer,
  passes messages along the edges, and the second layer's node embedding is taken of the first layer's messages clamped
  below at zero; the result is the pooled second round of messages. Walking the program's fold from the launch memory
  — host stretch, region, host stretch, … — every buffer the next step reads is one of these whole-array terms: a
  region's output is the dense layer of what the region finds in its operands, and a stretch or a region leaves the
  buffers it does not write as they were.
-/
import proofs.«143581_j22153441313372_2_alg».proof.Proof.Gen.KernelIdeal.Frame
import proofs.«143581_j22153441313372_2_alg».proof.Proof.EdgeEmbed
import proofs.«143581_j22153441313372_2_alg».proof.Proof.NodeEmbed
import proofs.«143581_j22153441313372_2_alg».proof.Proof.NodeEmbedClamped
import proofs.«143581_j22153441313372_2_alg».proof.Proof.HostChain
import proofs.«143581_j22153441313372_2_alg».proof.Proof.KernelRun

set_option maxRecDepth 16384

noncomputable section

namespace Cert.KernelIdeal.KValue

open Idealize.ShloMosaic Idealize.ShloMosaic.TcCoe Idealize.SL.Sem
open Cert.KernelIdeal Cert.KernelIdeal.Gen Cert.KernelIdeal.Chain Cert.DenseRows

/-- The network on whole arrays: node features, edge table, edge features, then per layer the node weights and bias and
    the edge weights and bias. -/
def result (a0 : FVec Ideal S40000x128 .f32) (a1 : IVec S2x640000 32) (a2 : FVec Ideal S640000x64 .f32)
    (a3 : FVec Ideal S128x128 .f32) (a4 : FVec Ideal S128 .f32) (a5 : FVec Ideal S64x128 .f32) (a6 : FVec Ideal S128 .f32)
    (a7 : FVec Ideal S128x128 .f32) (a8 : FVec Ideal S128 .f32) (a9 : FVec Ideal S64x128 .f32) (a10 : FVec Ideal S128 .f32) :
    FVec Ideal S128 .f32 :=
  pool (passMessages
    (denseRows (clamp0 (passMessages (denseRows a0 a3 (asRow a4)) (denseRows a2 a5 (asRow a6)) (sources a1) (targets a1)))
      a7 (asRow a8))
    (denseRows a2 a9 (asRow a10)) (sources a1) (targets a1))

variable (m : (ℓ : Loc nD τ sig) → Buf (Elt Ideal) ℓ) (ρ : Dev nD → PrngReg)

/-- At the last boundary the result buffer holds the network of the launch memory's argument arrays. -/
theorem last_contents (c : Dev nD) :
    W9 m ρ c (Proc.devRef .tc main_v42)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  -- after the first stretch
  have a0 : W1 m ρ c (Proc.devRef .tc main_arg0) = (m ((c : Thread nD τ).loc main_arg0)) := first_arg0 _
  have a2 : W1 m ρ c (Proc.devRef .tc main_arg2) = (m ((c : Thread nD τ).loc main_arg2)) := first_arg2 _
  have a3 : W1 m ρ c (Proc.devRef .tc main_arg3) = (m ((c : Thread nD τ).loc main_arg3)) := first_arg3 _
  have a4 : W1 m ρ c (Proc.devRef .tc main_arg4) = (m ((c : Thread nD τ).loc main_arg4)) := first_arg4 _
  have a5 : W1 m ρ c (Proc.devRef .tc main_arg5) = (m ((c : Thread nD τ).loc main_arg5)) := first_arg5 _
  have a7 : W1 m ρ c (Proc.devRef .tc main_arg7) = (m ((c : Thread nD τ).loc main_arg7)) := first_arg7 _
  have a8 : W1 m ρ c (Proc.devRef .tc main_arg8) = (m ((c : Thread nD τ).loc main_arg8)) := first_arg8 _
  have a9 : W1 m ρ c (Proc.devRef .tc main_arg9) = (m ((c : Thread nD τ).loc main_arg9)) := first_arg9 _
  have s1 : W1 m ρ c (Proc.devRef .tc main_v1) = sources (m ((c : Thread nD τ).loc main_arg1)) := first_sources _
  have t1 : W1 m ρ c (Proc.devRef .tc main_v3) = targets (m ((c : Thread nD τ).loc main_arg1)) := first_targets _
  have r4 : W1 m ρ c (Proc.devRef .tc main_v4) = asRow (m ((c : Thread nD τ).loc main_arg6)) := first_row4 _
  have r5 : W1 m ρ c (Proc.devRef .tc main_v5) = asRow (m ((c : Thread nD τ).loc main_arg10)) := first_row5 _
  -- after the edge-embedding region
  have e1 : W2 m ρ c (Proc.devRef .tc main_v6_0) = denseRows (m ((c : Thread nD τ).loc main_arg2)) (m ((c : Thread nD τ).loc main_arg5)) (asRow (m ((c : Thread nD τ).loc main_arg6))) := by
    refine (W2_arr m ρ c 5).trans ((EdgeEmbed.first_output (V1 m ρ) c).trans ?_)
    show denseRows (W1 m ρ c (Proc.devRef .tc main_arg2)) (W1 m ρ c (Proc.devRef .tc main_arg5)) (W1 m ρ c (Proc.devRef .tc main_v4)) = _
    rw [a2, a5, r4]
  have e2 : W2 m ρ c (Proc.devRef .tc main_v6_1) = denseRows (m ((c : Thread nD τ).loc main_arg2)) (m ((c : Thread nD τ).loc main_arg9)) (asRow (m ((c : Thread nD τ).loc main_arg10))) := by
    refine (W2_arr m ρ c 6).trans ((EdgeEmbed.second_output (V1 m ρ) c).trans ?_)
    show denseRows (W1 m ρ c (Proc.devRef .tc main_arg2)) (W1 m ρ c (Proc.devRef .tc main_arg9)) (W1 m ρ c (Proc.devRef .tc main_v5)) = _
    rw [a2, a9, r5]
  have s2 : W2 m ρ c (Proc.devRef .tc main_v1) = sources (m ((c : Thread nD τ).loc main_arg1)) := (W2_of_ne m ρ c main_v1 (by decide)).trans s1
  have t2 : W2 m ρ c (Proc.devRef .tc main_v3) = targets (m ((c : Thread nD τ).loc main_arg1)) := (W2_of_ne m ρ c main_v3 (by decide)).trans t1
  have b0 : W2 m ρ c (Proc.devRef .tc main_arg0) = (m ((c : Thread nD τ).loc main_arg0)) := (W2_of_ne m ρ c main_arg0 (by decide)).trans a0
  have b3 : W2 m ρ c (Proc.devRef .tc main_arg3) = (m ((c : Thread nD τ).loc main_arg3)) := (W2_of_ne m ρ c main_arg3 (by decide)).trans a3
  have b4 : W2 m ρ c (Proc.devRef .tc main_arg4) = (m ((c : Thread nD τ).loc main_arg4)) := (W2_of_ne m ρ c main_arg4 (by decide)).trans a4
  have b7 : W2 m ρ c (Proc.devRef .tc main_arg7) = (m ((c : Thread nD τ).loc main_arg7)) := (W2_of_ne m ρ c main_arg7 (by decide)).trans a7
  have b8 : W2 m ρ c (Proc.devRef .tc main_arg8) = (m ((c : Thread nD τ).loc main_arg8)) := (W2_of_ne m ρ c main_arg8 (by decide)).trans a8
  -- after the second stretch
  have r7 : W3 m ρ c (Proc.devRef .tc main_v7) = asRow (m ((c : Thread nD τ).loc main_arg4)) := (second_row7 (W2 m ρ c)).trans (congrArg asRow b4)
  have c0 : W3 m ρ c (Proc.devRef .tc main_arg0) = (m ((c : Thread nD τ).loc main_arg0)) := (second_keeps (W2 m ρ c) main_arg0 (by decide)).trans b0
  have c3 : W3 m ρ c (Proc.devRef .tc main_arg3) = (m ((c : Thread nD τ).loc main_arg3)) := (second_keeps (W2 m ρ c) main_arg3 (by decide)).trans b3
  have c7 : W3 m ρ c (Proc.devRef .tc main_arg7) = (m ((c : Thread nD τ).loc main_arg7)) := (second_keeps (W2 m ρ c) main_arg7 (by decide)).trans b7
  have c8 : W3 m ρ c (Proc.devRef .tc main_arg8) = (m ((c : Thread nD τ).loc main_arg8)) := (second_keeps (W2 m ρ c) main_arg8 (by decide)).trans b8
  have s3 : W3 m ρ c (Proc.devRef .tc main_v1) = sources (m ((c : Thread nD τ).loc main_arg1)) := (second_keeps (W2 m ρ c) main_v1 (by decide)).trans s2
  have t3 : W3 m ρ c (Proc.devRef .tc main_v3) = targets (m ((c : Thread nD τ).loc main_arg1)) := (second_keeps (W2 m ρ c) main_v3 (by decide)).trans t2
  have e1' : W3 m ρ c (Proc.devRef .tc main_v6_0) = denseRows (m ((c : Thread nD τ).loc main_arg2)) (m ((c : Thread nD τ).loc main_arg5)) (asRow (m ((c : Thread nD τ).loc main_arg6))) :=
    (second_keeps (W2 m ρ c) main_v6_0 (by decide)).trans e1
  have e2' : W3 m ρ c (Proc.devRef .tc main_v6_1) = denseRows (m ((c : Thread nD τ).loc main_arg2)) (m ((c : Thread nD τ).loc main_arg9)) (asRow (m ((c : Thread nD τ).loc main_arg10))) :=
    (second_keeps (W2 m ρ c) main_v6_1 (by decide)).trans e2
  -- after the first node-embedding region
  have h1 : W4 m ρ c (Proc.devRef .tc main_v8) = denseRows (m ((c : Thread nD τ).loc main_arg0)) (m ((c : Thread nD τ).loc main_arg3)) (asRow (m ((c : Thread nD τ).loc main_arg4))) := by
    refine (W4_arr m ρ c 3).trans ((NodeEmbed.nodes_output (V3 m ρ) c).trans ?_)
    show denseRows (W3 m ρ c (Proc.devRef .tc main_arg0)) (W3 m ρ c (Proc.devRef .tc main_arg3)) (W3 m ρ c (Proc.devRef .tc main_v7)) = _
    rw [c0, c3, r7]
  have s4 : W4 m ρ c (Proc.devRef .tc main_v1) = sources (m ((c : Thread nD τ).loc main_arg1)) := (W4_of_ne m ρ c main_v1 (by decide)).trans s3
  have t4 : W4 m ρ c (Proc.devRef .tc main_v3) = targets (m ((c : Thread nD τ).loc main_arg1)) := (W4_of_ne m ρ c main_v3 (by decide)).trans t3
  have d7 : W4 m ρ c (Proc.devRef .tc main_arg7) = (m ((c : Thread nD τ).loc main_arg7)) := (W4_of_ne m ρ c main_arg7 (by decide)).trans c7
  have d8 : W4 m ρ c (Proc.devRef .tc main_arg8) = (m ((c : Thread nD τ).loc main_arg8)) := (W4_of_ne m ρ c main_arg8 (by decide)).trans c8
  have e1'' : W4 m ρ c (Proc.devRef .tc main_v6_0) = denseRows (m ((c : Thread nD τ).loc main_arg2)) (m ((c : Thread nD τ).loc main_arg5)) (asRow (m ((c : Thread nD τ).loc main_arg6))) :=
    (W4_of_ne m ρ c main_v6_0 (by decide)).trans e1'
  have e2'' : W4 m ρ c (Proc.devRef .tc main_v6_1) = denseRows (m ((c : Thread nD τ).loc main_arg2)) (m ((c : Thread nD τ).loc main_arg9)) (asRow (m ((c : Thread nD τ).loc main_arg10))) :=
    (W4_of_ne m ρ c main_v6_1 (by decide)).trans e2'
  -- after the third stretch: the first round of messages
  have x1 : W5 m ρ c (Proc.devRef .tc main_v21)
      = passMessages (denseRows (m ((c : Thread nD τ).loc main_arg0)) (m ((c : Thread nD τ).loc main_arg3)) (asRow (m ((c : Thread nD τ).loc main_arg4)))) (denseRows (m ((c : Thread nD τ).loc main_arg2)) (m ((c : Thread nD τ).loc main_arg5)) (asRow (m ((c : Thread nD τ).loc main_arg6))))
          (sources (m ((c : Thread nD τ).loc main_arg1))) (targets (m ((c : Thread nD τ).loc main_arg1))) :=
    (third_messages (W4 m ρ c)).trans (by rw [h1, e1'', s4, t4])
  have r22 : W5 m ρ c (Proc.devRef .tc main_v22) = asRow (m ((c : Thread nD τ).loc main_arg8)) := (third_row22 (W4 m ρ c)).trans (congrArg asRow d8)
  have f7 : W5 m ρ c (Proc.devRef .tc main_arg7) = (m ((c : Thread nD τ).loc main_arg7)) := (third_arg7 (W4 m ρ c)).trans d7
  have s5 : W5 m ρ c (Proc.devRef .tc main_v1) = sources (m ((c : Thread nD τ).loc main_arg1)) := (third_sources (W4 m ρ c)).trans s4
  have t5 : W5 m ρ c (Proc.devRef .tc main_v3) = targets (m ((c : Thread nD τ).loc main_arg1)) := (third_targets (W4 m ρ c)).trans t4
  have e2''' : W5 m ρ c (Proc.devRef .tc main_v6_1) = denseRows (m ((c : Thread nD τ).loc main_arg2)) (m ((c : Thread nD τ).loc main_arg9)) (asRow (m ((c : Thread nD τ).loc main_arg10))) :=
    (third_edges (W4 m ρ c)).trans e2''
  -- after the second node-embedding region
  have h2 : W6 m ρ c (Proc.devRef .tc main_v23)
      = denseRows (clamp0 (passMessages (denseRows (m ((c : Thread nD τ).loc main_arg0)) (m ((c : Thread nD τ).loc main_arg3)) (asRow (m ((c : Thread nD τ).loc main_arg4))))
          (denseRows (m ((c : Thread nD τ).loc main_arg2)) (m ((c : Thread nD τ).loc main_arg5)) (asRow (m ((c : Thread nD τ).loc main_arg6)))) (sources (m ((c : Thread nD τ).loc main_arg1))) (targets (m ((c : Thread nD τ).loc main_arg1))))) (m ((c : Thread nD τ).loc main_arg7)) (asRow (m ((c : Thread nD τ).loc main_arg8))) := by
    refine (W6_arr m ρ c 3).trans ((NodeEmbedClamped.clamped_output (V5 m ρ) c).trans ?_)
    show denseRows (clamp0 (W5 m ρ c (Proc.devRef .tc main_v21))) (W5 m ρ c (Proc.devRef .tc main_arg7)) (W5 m ρ c (Proc.devRef .tc main_v22)) = _
    rw [x1, f7, r22]
  have s6 : W6 m ρ c (Proc.devRef .tc main_v1) = sources (m ((c : Thread nD τ).loc main_arg1)) := (W6_of_ne m ρ c main_v1 (by decide)).trans s5
  have t6 : W6 m ρ c (Proc.devRef .tc main_v3) = targets (m ((c : Thread nD τ).loc main_arg1)) := (W6_of_ne m ρ c main_v3 (by decide)).trans t5
  have e2'''' : W6 m ρ c (Proc.devRef .tc main_v6_1) = denseRows (m ((c : Thread nD τ).loc main_arg2)) (m ((c : Thread nD τ).loc main_arg9)) (asRow (m ((c : Thread nD τ).loc main_arg10))) :=
    (W6_of_ne m ρ c main_v6_1 (by decide)).trans e2'''
  -- the last three stretches
  show StableHlo.after hostOps3_2 (StableHlo.after hostOps3_1 (StableHlo.after hostOps3 (W6 m ρ c))) (Proc.devRef .tc main_v42) = _
  rw [last_result, h2, e2'''', s6, t6]
  rfl

/-- Every weakly fair execution of the idealized kernel ends with the result buffer at the network of the launch
    memory's argument arrays, and those arrays unchanged. -/
theorem run : θ_run (defs (F := Ideal)) (onTc (τ := τ) (main (F := Ideal))) ⟨m, fun _ => 0, ρ⟩ (fun r => ∀ c : Dev nD,
      r.2.mem ((c : Thread nD τ).loc main_v42)
        = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) :=
  (θ_run defs _ _).mono (fun r h c => ⟨(h c _ (mem_uc main_v42 (by decide))).trans (last_contents m ρ c),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c),
      (h c _ (mem_uc main_arg9 (by decide))).trans (W9_main_arg9 m ρ c),
      (h c _ (mem_uc main_arg10 (by decide))).trans (W9_main_arg10 m ρ c)⟩)
    (Cert.KernelIdeal.KRun.run_all (F := Ideal) m ρ)

end Cert.KernelIdeal.KValue

end
-- ==== Proof.ReferenceValue.lean ====
/-
  The idealized reference's result is the same network of its argument arrays.

  The reference is host operations only. Its two dense layers per round are the host's product plus two broadcasts of
  the bias vector, which is the dense layer with the bias as a row; its clamp between the rounds is a maximum with the
  broadcast zero constant. With those read so, its composed result term is, operation by operation, the network the
  kernel's program computes.
-/
import proofs.«143581_j22153441313372_2_alg».proof.Proof.Gen.ReferenceIdeal.Run
import proofs.«143581_j22153441313372_2_alg».proof.Proof.KernelValue

set_option maxRecDepth 16384

noncomputable section

namespace Cert.ReferenceIdeal.RefValue

open Idealize.ShloMosaic Idealize.ShloMosaic.TcCoe Idealize.SL.Sem
open Cert.ReferenceIdeal Cert.ReferenceIdeal.Facts₀ Cert.DenseRows

/-- The host's node embedding is the dense layer with the bias as a row. -/
theorem node_dense (A : FVec Ideal S40000x128 .f32) (W : FVec Ideal S128x128 .f32) (v : FVec Ideal S128 .f32) :
    addf (Host.dotGeneral dot_S40000x128_S128x128_S40000x128_1_0_0_1_n_n none A W)
        (broadcastInDim S40000x128 ![0, 1] bcast_S1x128_S40000x128_0_1 (broadcastInDim S1x128 ![1] bcast_S128_S1x128_1 v))
      = denseRows A W (Cert.KernelIdeal.Chain.asRow v) :=
  host_dense A W v _ _ _

/-- The host's edge embedding is the dense layer with the bias as a row. -/
theorem edge_dense (A : FVec Ideal S640000x64 .f32) (W : FVec Ideal S64x128 .f32) (v : FVec Ideal S128 .f32) :
    addf (Host.dotGeneral dot_S640000x64_S64x128_S640000x128_1_0_0_1_n_n none A W)
        (broadcastInDim S640000x128 ![0, 1] bcast_S1x128_S640000x128_0_1 (broadcastInDim S1x128 ![1] bcast_S128_S1x128_1 v))
      = denseRows A W (Cert.KernelIdeal.Chain.asRow v) :=
  host_dense A W v _ _ _

/-- The host's clamp between the rounds. -/
theorem node_clamp (X : FVec Ideal S40000x128 .f32) :
    maximumf X (broadcastInDim S40000x128 ![] bcast_S_S40000x128 (constant (F := Ideal) S_ .f32 0x00000000#32)) = clamp0 X :=
  host_clamp0 X _

variable (m : (ℓ : Loc nD τ sig) → Buf (Elt Ideal) ℓ)

/-- The reference run's result term is the network of the launch memory's argument arrays. -/
theorem result_eq (c : Dev nD) :
    Cert.ReferenceIdeal.Value.res_main_v52 (F := Ideal) m c
      = Cert.KernelIdeal.KValue.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.KernelIdeal.KValue.result
  rw [← node_dense (m ((c.tc : Thread nD τ).loc main_arg0)) (m ((c.tc : Thread nD τ).loc main_arg3)) (m ((c.tc : Thread nD τ).loc main_arg4)), ← edge_dense (m ((c.tc : Thread nD τ).loc main_arg2)) (m ((c.tc : Thread nD τ).loc main_arg5)) (m ((c.tc : Thread nD τ).loc main_arg6)), ← edge_dense (m ((c.tc : Thread nD τ).loc main_arg2)) (m ((c.tc : Thread nD τ).loc main_arg9)) (m ((c.tc : Thread nD τ).loc main_arg10)),
    ← node_clamp, ← node_dense _ (m ((c.tc : Thread nD τ).loc main_arg7)) (m ((c.tc : Thread nD τ).loc main_arg8))]
  unfold Cert.ReferenceIdeal.Value.res_main_v52 Cert.KernelIdeal.Chain.pool Cert.KernelIdeal.Chain.passMessages
    Cert.KernelIdeal.Chain.sources Cert.KernelIdeal.Chain.targets
  rfl

end Cert.ReferenceIdeal.RefValue

end
-- ==== Proof.lean ====
/-
  A two-layer graph network, its dense layers tiled over row blocks in three kernel regions, against the same network
  written on whole arrays.

  Per layer the nodes and the edges are embedded by a dense layer (a matrix product plus a bias row), each edge's
  message is its source node's embedding plus the edge's embedding, and the messages are summed into their destination
  nodes; the second layer's node embedding is taken of the first layer's messages clamped below at zero; the result
  sums, over the nodes whose row is not constant, the rows of the second round of messages.

  The kernel's program computes every dense layer 8000 rows at a time: an output row of a dense layer depends on the
  same row of the first operand only, so the row blocks written back are the blocks of the whole-array layer, and they
  tile the array. On the extended reals the changes of float format around the products are the identity. Everything
  else — the edge table's two rows, the wrap of negative source numbers, the gather, the sum into destinations, the
  pooling — is the same host operations in both programs. So both results are one function of the eleven argument
  arrays (`Cert.KernelIdeal.KValue.result`), and no law of arithmetic beyond that is used: the precondition is not
  opened.
-/
import proofs.«143581_j22153441313372_2_alg».proof.Defs
import proofs.«143581_j22153441313372_2_alg».proof.Proof.Gen.Kernel
import proofs.«143581_j22153441313372_2_alg».proof.Proof.Gen.Kernel.Skeleton
import proofs.«143581_j22153441313372_2_alg».proof.Proof.Gen.Kernel.Launch
import proofs.«143581_j22153441313372_2_alg».proof.Proof.Gen.Kernel.Points
import proofs.«143581_j22153441313372_2_alg».proof.Proof.Gen.Kernel.Frame
import proofs.«143581_j22153441313372_2_alg».proof.Proof.Gen.KernelIdeal
import proofs.«143581_j22153441313372_2_alg».proof.Proof.Gen.KernelIdeal.Skeleton
import proofs.«143581_j22153441313372_2_alg».proof.Proof.Gen.KernelIdeal.Launch
import proofs.«143581_j22153441313372_2_alg».proof.Proof.Gen.KernelIdeal.Points
import proofs.«143581_j22153441313372_2_alg».proof.Proof.Gen.KernelIdeal.Frame
import proofs.«143581_j22153441313372_2_alg».proof.Proof.Gen.ReferenceIdeal
import proofs.«143581_j22153441313372_2_alg».proof.Proof.Gen.Pre_finite_inputs
import proofs.«143581_j22153441313372_2_alg».proof.Proof.Gen.ReferenceIdeal.Run
import proofs.«143581_j22153441313372_2_alg».proof.Proof.KernelValue
import proofs.«143581_j22153441313372_2_alg».proof.Proof.ReferenceValue
import Idealize.ShloMosaic.Adequacy
import Idealize.ShloMosaic.Init

noncomputable section

namespace Cert.Proof

open Idealize.ShloMosaic Idealize.SL.Sem

/-- The printed kernel runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end at the network of the argument arrays, and the argument arrays agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10⟩ := hagree c
  rw [Cert.ReferenceIdeal.RefValue.result_eq m' c, g0, g1, g2, g3, g4, g5, g6, g7, g8, g9, g10]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
